-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x512 .f32) (main_arg9 : FVec F S256 .f32) (main_arg10 : FVec F S256x512 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg10
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S512x512 .f32) (main_arg8 : FVec F S256x512 .f32) (main_arg9 : FVec F S256 .f32) (main_arg10 : FVec F S256x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S256x512 .f32) (main_arg9 : FVec F S256 .f32) (main_arg10 : FVec F S256x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩
abbrev S1x256 : Shape := ⟨2, ![1, 256]⟩
abbrev S10000x256 : Shape := ⟨2, ![10000, 256]⟩
abbrev S1000x256 : Shape := ⟨2, ![1000, 256]⟩
abbrev S512x256 : Shape := ⟨2, ![512, 256]⟩

abbrev nBuf : Space → Nat
  | .hbm => 84
  | .vmem => 27
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S_, .f32⟩
  | .hbm, ⟨16, _⟩ => ⟨S160000, .f32⟩
  | .hbm, ⟨17, _⟩ => ⟨S_, .f32⟩
  | .hbm, ⟨18, _⟩ => ⟨S10000, .f32⟩
  | .hbm, ⟨19, _⟩ => ⟨S160000x1, .i32⟩
  | .hbm, ⟨20, _⟩ => ⟨S10000, .f32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x512, .f32⟩
  | .hbm, ⟨30, _⟩ => ⟨S_, .f32⟩
  | .hbm, ⟨31, _⟩ => ⟨S10000x512, .f32⟩
  | .hbm, ⟨32, _⟩ => ⟨S160000x1, .i32⟩
  | .hbm, ⟨33, _⟩ => ⟨S10000x512, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S10000x1, .f32⟩
  | .hbm, ⟨38, _⟩ => ⟨S10000x512, .f32⟩
  | .hbm, ⟨39, _⟩ => ⟨S10000x512, .f32⟩
  | .hbm, ⟨40, _⟩ => ⟨S1x512, .f32⟩
  | .hbm, ⟨41, _⟩ => ⟨S10000x512, .f32⟩
  | .hbm, ⟨42, _⟩ => ⟨S_, .i32⟩
  | .hbm, ⟨43, _⟩ => ⟨S160000, .i32⟩
  | .hbm, ⟨44, _⟩ => ⟨S160000, .i1⟩
  | .hbm, ⟨45, _⟩ => ⟨S_, .i32⟩
  | .hbm, ⟨46, _⟩ => ⟨S160000, .i32⟩
  | .hbm, ⟨47, _⟩ => ⟨S160000, .i32⟩
  | .hbm, ⟨48, _⟩ => ⟨S160000, .i32⟩
  | .hbm, ⟨49, _⟩ => ⟨S160000x1, .i32⟩
  | .hbm, ⟨50, _⟩ => ⟨S160000x512, .f32⟩
  | .hbm, ⟨51, _⟩ => ⟨S_, .f32⟩
  | .hbm, ⟨52, _⟩ => ⟨S10000x512, .f32⟩
  | .hbm, ⟨53, _⟩ => ⟨S160000x1, .i32⟩
  | .hbm, ⟨54, _⟩ => ⟨S10000x512, .f32⟩
  | .hbm, ⟨55, _⟩ => ⟨S_, .f32⟩
  | .hbm, ⟨56, _⟩ => ⟨S10000, .f32⟩
  | .hbm, ⟨57, _⟩ => ⟨S10000, .f32⟩
  | .hbm, ⟨58, _⟩ => ⟨S10000x1, .f32⟩
  | .hbm, ⟨59, _⟩ => ⟨S10000x512, .f32⟩
  | .hbm, ⟨60, _⟩ => ⟨S10000x512, .f32⟩
  | .hbm, ⟨61, _⟩ => ⟨S1x512, .f32⟩
  | .hbm, ⟨62, _⟩ => ⟨S10000x512, .f32⟩
  | .hbm, ⟨63, _⟩ => ⟨S_, .i32⟩
  | .hbm, ⟨64, _⟩ => ⟨S160000, .i32⟩
  | .hbm, ⟨65, _⟩ => ⟨S160000, .i1⟩
  | .hbm, ⟨66, _⟩ => ⟨S_, .i32⟩
  | .hbm, ⟨67, _⟩ => ⟨S160000, .i32⟩
  | .hbm, ⟨68, _⟩ => ⟨S160000, .i32⟩
  | .hbm, ⟨69, _⟩ => ⟨S160000, .i32⟩
  | .hbm, ⟨70, _⟩ => ⟨S160000x1, .i32⟩
  | .hbm, ⟨71, _⟩ => ⟨S160000x512, .f32⟩
  | .hbm, ⟨72, _⟩ => ⟨S_, .f32⟩
  | .hbm, ⟨73, _⟩ => ⟨S10000x512, .f32⟩
  | .hbm, ⟨74, _⟩ => ⟨S160000x1, .i32⟩
  | .hbm, ⟨75, _⟩ => ⟨S10000x512, .f32⟩
  | .hbm, ⟨76, _⟩ => ⟨S_, .f32⟩
  | .hbm, ⟨77, _⟩ => ⟨S10000, .f32⟩
  | .hbm, ⟨78, _⟩ => ⟨S10000, .f32⟩
  | .hbm, ⟨79, _⟩ => ⟨S10000x1, .f32⟩
  | .hbm, ⟨80, _⟩ => ⟨S10000x512, .f32⟩
  | .hbm, ⟨81, _⟩ => ⟨S10000x512, .f32⟩
  | .hbm, ⟨82, _⟩ => ⟨S1x256, .f32⟩
  | .hbm, ⟨83, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S256x512, .f32⟩
  | .local _ .vmem, ⟨23, _⟩ => ⟨S256x512, .f32⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  shapeCasts_S256_S1x256 : S256.ShapeCasts S1x256
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S10000x512.size a
  hwx1_5 : ∀ i : grid1.Coords, EltTy.bits .f32 = 32 ∨ (Rect.block (s := S10000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S10000x512.size a
  hwx2_1 : ∀ i : grid2.Coords, EltTy.bits .f32 = 32 ∨ (Rect.block (s := S10000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S10000x256.size a
  hwx2_5 : ∀ i : grid2.Coords, EltTy.bits .f32 = 32 ∨ (Rect.block (s := S10000x256) S1000x256.size (cc2_transform_5 i) (hinb2_5 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S512x256 : Shape := ⟨2, ![512, 256]⟩
abbrev S10000x256 : Shape := ⟨2, ![10000, 256]⟩
abbrev S1x256 : Shape := ⟨2, ![1, 256]⟩

abbrev nBuf : Space → Nat
  | .hbm => 161
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512x512, .f32⟩
  | 5 => ⟨S512x512, .f32⟩
  | 6 => ⟨S512, .f32⟩
  | 7 => ⟨S512x512, .f32⟩
  | 8 => ⟨S256x512, .f32⟩
  | 9 => ⟨S256, .f32⟩
  | 10 => ⟨S256x512, .f32⟩
  | 11 => ⟨S1x160000, .i32⟩
  | 12 => ⟨S160000, .i32⟩
  | 13 => ⟨S1x160000, .i32⟩
  | 14 => ⟨S160000, .i32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x512, .f32⟩
  | 24 => ⟨S_, .f32⟩
  | 25 => ⟨S10000x512, .f32⟩
  | 26 => ⟨S160000x1, .i32⟩
  | 27 => ⟨S10000x512, .f32⟩
  | 28 => ⟨S_, .f32⟩
  | 29 => ⟨S160000, .f32⟩
  | 30 => ⟨S_, .f32⟩
  | 31 => ⟨S10000, .f32⟩
  | 32 => ⟨S160000x1, .i32⟩
  | 33 => ⟨S10000, .f32⟩
  | 34 => ⟨S_, .f32⟩
  | 35 => ⟨S10000, .f32⟩
  | 36 => ⟨S10000, .f32⟩
  | 37 => ⟨S10000x1, .f32⟩
  | 38 => ⟨S10000x512, .f32⟩
  | 39 => ⟨S10000x512, .f32⟩
  | 40 => ⟨S512x512, .f32⟩
  | 41 => ⟨S10000x512, .f32⟩
  | 42 => ⟨S1x512, .f32⟩
  | 43 => ⟨S10000x512, .f32⟩
  | 44 => ⟨S10000x512, .f32⟩
  | 45 => ⟨S512x512, .f32⟩
  | 46 => ⟨S10000x512, .f32⟩
  | 47 => ⟨S10000x512, .f32⟩
  | 48 => ⟨S10000x512, .f32⟩
  | 49 => ⟨S_, .f32⟩
  | 50 => ⟨S10000, .f32⟩
  | 51 => ⟨S10000x1, .f32⟩
  | 52 => ⟨S10000x1, .f32⟩
  | 53 => ⟨S_, .f32⟩
  | 54 => ⟨S10000x1, .f32⟩
  | 55 => ⟨S10000x1, .f32⟩
  | 56 => ⟨S10000x512, .f32⟩
  | 57 => ⟨S10000x512, .f32⟩
  | 58 => ⟨S_, .f32⟩
  | 59 => ⟨S10000x512, .f32⟩
  | 60 => ⟨S10000x512, .f32⟩
  | 61 => ⟨S1x160000, .i32⟩
  | 62 => ⟨S160000, .i32⟩
  | 63 => ⟨S1x160000, .i32⟩
  | 64 => ⟨S160000, .i32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x512, .f32⟩
  | 74 => ⟨S_, .f32⟩
  | 75 => ⟨S10000x512, .f32⟩
  | 76 => ⟨S160000x1, .i32⟩
  | 77 => ⟨S10000x512, .f32⟩
  | 78 => ⟨S_, .f32⟩
  | 79 => ⟨S160000, .f32⟩
  | 80 => ⟨S_, .f32⟩
  | 81 => ⟨S10000, .f32⟩
  | 82 => ⟨S160000x1, .i32⟩
  | 83 => ⟨S10000, .f32⟩
  | 84 => ⟨S_, .f32⟩
  | 85 => ⟨S10000, .f32⟩
  | 86 => ⟨S10000, .f32⟩
  | 87 => ⟨S10000x1, .f32⟩
  | 88 => ⟨S10000x512, .f32⟩
  | 89 => ⟨S10000x512, .f32⟩
  | 90 => ⟨S512x512, .f32⟩
  | 91 => ⟨S10000x512, .f32⟩
  | 92 => ⟨S1x512, .f32⟩
  | 93 => ⟨S10000x512, .f32⟩
  | 94 => ⟨S10000x512, .f32⟩
  | 95 => ⟨S512x512, .f32⟩
  | 96 => ⟨S10000x512, .f32⟩
  | 97 => ⟨S10000x512, .f32⟩
  | 98 => ⟨S10000x512, .f32⟩
  | 99 => ⟨S_, .f32⟩
  | 100 => ⟨S10000, .f32⟩
  | 101 => ⟨S10000x1, .f32⟩
  | 102 => ⟨S10000x1, .f32⟩
  | 103 => ⟨S_, .f32⟩
  | 104 => ⟨S10000x1, .f32⟩
  | 105 => ⟨S10000x1, .f32⟩
  | 106 => ⟨S10000x512, .f32⟩
  | 107 => ⟨S10000x512, .f32⟩
  | 108 => ⟨S_, .f32⟩
  | 109 => ⟨S10000x512, .f32⟩
  | 110 => ⟨S10000x512, .f32⟩
  | 111 => ⟨S1x160000, .i32⟩
  | 112 => ⟨S160000, .i32⟩
  | 113 => ⟨S1x160000, .i32⟩
  | 114 => ⟨S160000, .i32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S160000x512, .f32⟩
  | 124 => ⟨S_, .f32⟩
  | 125 => ⟨S10000x512, .f32⟩
  | 126 => ⟨S160000x1, .i32⟩
  | 127 => ⟨S10000x512, .f32⟩
  | _ => ⟨S10000x512, .f32⟩

abbrev hbmTy0_1 (i : Nat) : BufTy := match i % 128 with
  | 0 => ⟨S_, .f32⟩
  | 1 => ⟨S160000, .f32⟩
  | 2 => ⟨S_, .f32⟩
  | 3 => ⟨S10000, .f32⟩
  | 4 => ⟨S160000x1, .i32⟩
  | 5 => ⟨S10000, .f32⟩
  | 6 => ⟨S_, .f32⟩
  | 7 => ⟨S10000, .f32⟩
  | 8 => ⟨S10000, .f32⟩
  | 9 => ⟨S10000x1, .f32⟩
  | 10 => ⟨S10000x512, .f32⟩
  | 11 => ⟨S10000x512, .f32⟩
  | 12 => ⟨S512x256, .f32⟩
  | 13 => ⟨S10000x256, .f32⟩
  | 14 => ⟨S1x256, .f32⟩
  | 15 => ⟨S10000x256, .f32⟩
  | 16 => ⟨S10000x256, .f32⟩
  | 17 => ⟨S512x256, .f32⟩
  | 18 => ⟨S10000x256, .f32⟩
  | 19 => ⟨S10000x256, .f32⟩
  | 20 => ⟨S10000x256, .f32⟩
  | 21 => ⟨S_, .f32⟩
  | 22 => ⟨S10000, .f32⟩
  | 23 => ⟨S10000x1, .f32⟩
  | 24 => ⟨S10000x1, .f32⟩
  | 25 => ⟨S_, .f32⟩
  | 26 => ⟨S10000x1, .f32⟩
  | 27 => ⟨S10000x1, .f32⟩
  | 28 => ⟨S10000x256, .f32⟩
  | 29 => ⟨S10000x256, .f32⟩
  | 30 => ⟨S_, .f32⟩
  | 31 => ⟨S10000x256, .f32⟩
  | 32 => ⟨S10000x256, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_cst : Ref sig .tc := ⟨.hbm, 108, rfl⟩
abbrev main_call1_v0 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_14 : Ref sig .tc := ⟨.hbm, 115, rfl⟩
abbrev main_v84 : Ref sig .tc := ⟨.hbm, 116, rfl⟩
abbrev main_v85 : Ref sig .tc := ⟨.hbm, 117, rfl⟩
abbrev main_c_15 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_16 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_19 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_20 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_call2_cst : Ref sig .tc := ⟨.hbm, 158, rfl⟩
abbrev main_call2_v0 : Ref sig .tc := ⟨.hbm, 159, rfl⟩
abbrev main_v119 : Ref sig .tc := ⟨.hbm, 160, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S10000_d1 : S10000x512.ReducesTo [1] S10000
  h_S_ : 0 < S_.numel
  bcast_S_S10000x1 : S_.BroadcastsInDim S10000x1 (![] : Fin 0 → Fin S10000x1.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  dot_S10000x512_S512x256_S10000x256_1_0_0_1_n_n_wf : DotDims.WF S10000x512 S512x256 S10000x256 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.KernelRun.lean ====
/-
  The idealized kernel's run with its result named.

  The program is three launches of the dense layer among stretches of host operations. The generated frame module
  folds the buffer contents through the six segments (`W0 … W6`) and proves that every weakly fair execution ends
  with every unscoped buffer at `W6`; it keeps, of that, only the argument arrays. Here the same launch theorem is
  read at the result buffer too: the final contents of the last launch's output array are `W6` at that buffer.
-/
import proofs.«161853_j25220047962465_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the fold's last
    contents `W6` of its buffer, and every argument array ends as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.SageRow.lean ====
/-
  One layer of a graph network with mean aggregation, one output row at a time, on the extended reals.

  A row of the layer's output depends on ONE row `a` of the aggregated neighbour means and ONE row `x` of the node
  features, on the two weight matrices `wl`, `wr` (one row per output feature) and on the bias `b`:

    lin q  = Σ_k a k · wl q k  +  Σ_k x k · wr q k  +  b q
    out q  = max (lin q / max (sqrt (Σ_j lin j · lin j)) ε) 0

  with `ε` the float word of 1e-12 and `0` the zero word, both kept as words (the same words occur on both sides
  of the comparison, so neither is ever evaluated). `layer` is the same function on whole arrays: output entry
  (r, q) is `rowOut` of row r of the two row arrays.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The affine part of output feature `q`: the aggregated row against row `q` of `wl`, plus the node's own row against
    row `q` of `wr`, plus the bias. -/
def lin {n : ℕ} (a x : Fin 512 → EReal) (wl wr : Fin n → Fin 512 → EReal) (b : Fin n → EReal) (q : Fin n) : EReal :=
  (∑ k : Fin 512, a k * wl q k + ∑ k : Fin 512, x k * wr q k) + b q

/-- Output feature `q` of the row: the affine part divided by the row's Euclidean norm (bounded below by ε), then
    clamped below at zero. -/
def rowOut {n : ℕ} (a x : Fin 512 → EReal) (wl wr : Fin n → Fin 512 → EReal) (b : Fin n → EReal) (q : Fin n) : EReal :=
  max (Ideal.div (lin a x wl wr b q)
        (max (Ideal.sqrt (∑ j : Fin n, lin a x wl wr b j * lin a x wl wr b j)) (Ideal.ofBits .f32 0x2B8CBCCC#32)))
    (Ideal.ofBits .f32 0x00000000#32)

/-- The layer on whole arrays of `R` rows: entry (r, q) is `rowOut` of row r of `mean` and of `x`. -/
def layer {R n : ℕ} (mean x : (⟨2, ![R, 512]⟩ : Shape).Idx → EReal) (wl wr : (⟨2, ![n, 512]⟩ : Shape).Idx → EReal)
    (b : Fin n → EReal) : (⟨2, ![R, n]⟩ : Shape).Idx → EReal :=
  fun i => rowOut (fun k => mean (ix2 (i 0) k)) (fun k => x (ix2 (i 0) k)) (fun q k => wl (ix2 q k))
    (fun q k => wr (ix2 q k)) b (i 1)

theorem layer_apply {R n : ℕ} (mean x : (⟨2, ![R, 512]⟩ : Shape).Idx → EReal) (wl wr : (⟨2, ![n, 512]⟩ : Shape).Idx → EReal)
    (b : Fin n → EReal) (r : Fin R) (q : Fin n) :
    layer mean x wl wr b (ix2 r q) = rowOut (fun k => mean (ix2 r k)) (fun k => x (ix2 r k)) (fun q k => wl (ix2 q k))
      (fun q k => wr (ix2 q k)) b q := rfl

/-- The reference adds the bias before the second product; on the extended reals addition is commutative and
    associative, so the grouping does not matter. -/
theorem lin_eq {n : ℕ} (a x : Fin 512 → EReal) (wl wr : Fin n → Fin 512 → EReal) (b : Fin n → EReal) (q : Fin n) :
    (∑ k : Fin 512, a k * wl q k + b q) + ∑ k : Fin 512, x k * wr q k = lin a x wl wr b q := by
  unfold lin; exact add_right_comm _ _ _

end Cert.Sage

end
-- ==== Proof.KernelRows.lean ====
/-
  The three kernel bodies of a three-layer graph network with mean aggregation, read at one entry of what they store.

  Each body loads a block of 1000 rows of the aggregated neighbour means and the same rows of the node features, the
  two weight matrices whole (one row per output feature) and the bias as a one-row block, and stores

    A      = means · wlᵀ  +  feats · wrᵀ  +  bias   (two contractions into zero accumulators, the bias row broadcast)
    stored = max (A / max (sqrt (row sums of A·A)) ε) 0

  with the row sums kept as a column and broadcast back over the row. On the extended reals a change of float format
  is the identity, so entry (p, q) of `A` is the affine part `Cert.Sage.lin` of row p at feature q, and entry (p, q) of
  what is stored is `Cert.Sage.rowOut` of row p at q. The module reads each non-pointwise operation at an index (the
  column forms of a cast and a broadcast, the sum along a row, a contraction with one shared axis), then the affine
  part, then the normalisation, and puts them together for the bodies of widths 512, 512 and 256.
-/
import proofs.«161853_j25220047962465_1_alg».proof.Proof.Gen.KernelIdeal.Skeleton
import proofs.«161853_j25220047962465_1_alg».proof.Proof.SageRow
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Kern

open Idealize.ShloMosaic Idealize.ShloMosaic.ValueIdx Cert.KernelIdeal Cert.KernelIdeal.Gen

/-! ## A row reduction kept as a column, read at an index -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The sum over axis 1 of an `[a, b]` array of extended reals, into the zero word, is at row `r` the sum of that
    row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-! ## A contraction read at an index -/

/-- The contraction of an `[1000, 512]` block with a `[512, 512]` block into the zero accumulator is, at `(p, q)`, the sum
    over the shared axis of the products. -/
theorem matmul512_apply (lhs : FVec Ideal S1000x512 .bf16) (rhs : FVec Ideal S512x512 .bf16) (p : Fin 1000) (q : Fin 512) :
    matmul dot_S1000x512_S512x512_S1000x512_1_0_0_1_n_n none lhs rhs (constant (F := Ideal) S1000x512 .f32 0x00000000#32) (ix2 p q)
      = ∑ k : Fin 512, lhs (ix2 p k) * rhs (ix2 k q) := by
  refine (Ideal.matmul_constant_zero_apply dot_S1000x512_S512x512_S1000x512_1_0_0_1_n_n none lhs rhs (ix2 p q)).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have l0 : ∀ c : dot_S1000x512_S512x512_S1000x512_1_0_0_1_n_n.contr.Idx, (dot_S1000x512_S512x512_S1000x512_1_0_0_1_n_n.lhsIdx (ix2 p q) c 0).val = p.val := fun c => by
    unfold DotDims.lhsIdx
    rw [dif_neg (show ¬(0 : Fin S1000x512.rank) ∈ dot_S1000x512_S512x512_S1000x512_1_0_0_1_n_n.lhsBatch by decide),
      dif_pos (show (0 : Fin S1000x512.rank) ∈ dot_S1000x512_S512x512_S1000x512_1_0_0_1_n_n.lhsNonContracting by decide)]
    rfl
  have r1 : ∀ c : dot_S1000x512_S512x512_S1000x512_1_0_0_1_n_n.contr.Idx, (dot_S1000x512_S512x512_S1000x512_1_0_0_1_n_n.rhsIdx (ix2 p q) c 1).val = q.val := fun c => by
    unfold DotDims.rhsIdx
    rw [dif_neg (show ¬(1 : Fin S512x512.rank) ∈ dot_S1000x512_S512x512_S1000x512_1_0_0_1_n_n.rhsBatch by decide),
      dif_pos (show (1 : Fin S512x512.rank) ∈ dot_S1000x512_S512x512_S1000x512_1_0_0_1_n_n.rhsNonContracting by decide)]
    rfl
  have el : dot_S1000x512_S512x512_S1000x512_1_0_0_1_n_n.lhsIdx (ix2 p q) ((ValueIdx.contrEquiv1 dot_S1000x512_S512x512_S1000x512_1_0_0_1_n_n 512 rfl rfl).symm k) = ix2 p k :=
    funext fun a => Fin.ext (by
      match a with
      | ⟨0, _⟩ => exact l0 _
      | ⟨1, _⟩ => exact (dot_S1000x512_S512x512_S1000x512_1_0_0_1_n_n.lhsIdx_val_of_single rfl (ix2 p q) _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q :=
    funext fun a => Fin.ext (by
      match a with
      | ⟨0, _⟩ => exact (dot_S1000x512_S512x512_S1000x512_1_0_0_1_n_n.rhsIdx_val_of_single rfl (ix2 p q) _).trans hk
      | ⟨1, _⟩ => exact r1 _)
  rw [el, er]

/-- The contraction of an `[1000, 512]` block with a `[512, 256]` block into the zero accumulator is, at `(p, q)`, the sum
    over the shared axis of the products. -/
theorem matmul256_apply (lhs : FVec Ideal S1000x512 .bf16) (rhs : FVec Ideal S512x256 .bf16) (p : Fin 1000) (q : Fin 256) :
    matmul dot_S1000x512_S512x256_S1000x256_1_0_0_1_n_n none lhs rhs (constant (F := Ideal) S1000x256 .f32 0x00000000#32) (ix2 p q)
      = ∑ k : Fin 512, lhs (ix2 p k) * rhs (ix2 k q) := by
  refine (Ideal.matmul_constant_zero_apply dot_S1000x512_S512x256_S1000x256_1_0_0_1_n_n none lhs rhs (ix2 p q)).trans ?_
  rw [← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have l0 : ∀ c : dot_S1000x512_S512x256_S1000x256_1_0_0_1_n_n.contr.Idx, (dot_S1000x512_S512x256_S1000x256_1_0_0_1_n_n.lhsIdx (ix2 p q) c 0).val = p.val := fun c => by
    unfold DotDims.lhsIdx
    rw [dif_neg (show ¬(0 : Fin S1000x512.rank) ∈ dot_S1000x512_S512x256_S1000x256_1_0_0_1_n_n.lhsBatch by decide),
      dif_pos (show (0 : Fin S1000x512.rank) ∈ dot_S1000x512_S512x256_S1000x256_1_0_0_1_n_n.lhsNonContracting by decide)]
    rfl
  have r1 : ∀ c : dot_S1000x512_S512x256_S1000x256_1_0_0_1_n_n.contr.Idx, (dot_S1000x512_S512x256_S1000x256_1_0_0_1_n_n.rhsIdx (ix2 p q) c 1).val = q.val := fun c => by
    unfold DotDims.rhsIdx
    rw [dif_neg (show ¬(1 : Fin S512x256.rank) ∈ dot_S1000x512_S512x256_S1000x256_1_0_0_1_n_n.rhsBatch by decide),
      dif_pos (show (1 : Fin S512x256.rank) ∈ dot_S1000x512_S512x256_S1000x256_1_0_0_1_n_n.rhsNonContracting by decide)]
    rfl
  have el : dot_S1000x512_S512x256_S1000x256_1_0_0_1_n_n.lhsIdx (ix2 p q) ((ValueIdx.contrEquiv1 dot_S1000x512_S512x256_S1000x256_1_0_0_1_n_n 512 rfl rfl).symm k) = ix2 p k :=
    funext fun a => Fin.ext (by
      match a with
      | ⟨0, _⟩ => exact l0 _
      | ⟨1, _⟩ => exact (dot_S1000x512_S512x256_S1000x256_1_0_0_1_n_n.lhsIdx_val_of_single rfl (ix2 p q) _).trans hk)
  have er : dot_S1000x512_S512x256_S1000x256_1_0_0_1_n_n.rhsIdx (ix2 p q) ((ValueIdx.contrEquiv1 dot_S1000x512_S512x256_S1000x256_1_0_0_1_n_n 512 rfl rfl).symm k) = ix2 k q :=
    funext fun a => Fin.ext (by
      match a with
      | ⟨0, _⟩ => exact (dot_S1000x512_S512x256_S1000x256_1_0_0_1_n_n.rhsIdx_val_of_single rfl (ix2 p q) _).trans hk
      | ⟨1, _⟩ => exact r1 _)
  rw [el, er]

/-! ## The row normalisation at an index -/

/-- A square root at an index is the square root of the element. -/
theorem sqrt_apply {s : Shape} {φ : FTy} (a : FVec Ideal s φ) (i : s.Idx) : sqrt a i = Ideal.sqrt (a i) := rfl

/-- What each body does with its affine part `A` (an `[1000, n]` block): the row sums of squares kept as a column, their
    square roots bounded below by the word of 1e-12, the column broadcast back over the row, the quotient, and the
    maximum with the zero word. -/
def rowNorm {n : ℕ} (A : FVec Ideal ⟨2, ![1000, n]⟩ .f32) (hr : (⟨2, ![1000, n]⟩ : Shape).Reduces [1] ⟨1, ![1000]⟩)
    (hb : (⟨2, ![1000, 1]⟩ : Shape).Broadcasts ⟨2, ![1000, n]⟩) : FVec Ideal ⟨2, ![1000, n]⟩ .f32 :=
  maximumf
    (divf A
      (broadcastTo ⟨2, ![1000, n]⟩
        (maximumf
          (sqrt (shapeCast S1000x1 (multiReduction .add [1] S1000 (mulf A A) 0x00000000#32 hr (.inl rfl) rfl)
            shapeCasts_S1000_S1000x1))
          (broadcast S1000x1 (Scalar.ofBits (F := Ideal) .f32 0x2B8CBCCC#32)))
        hb))
    (broadcast ⟨2, ![1000, n]⟩ (Scalar.ofBits (F := Ideal) .f32 0x00000000#32))

/-- Entry `(p, q)` of the normalised block: the entry of `A` over the Euclidean norm of row `p` of `A` (bounded below by
    the word of 1e-12), clamped below at the zero word. -/
theorem rowNorm_apply {n : ℕ} (A : FVec Ideal ⟨2, ![1000, n]⟩ .f32) (hr : (⟨2, ![1000, n]⟩ : Shape).Reduces [1] ⟨1, ![1000]⟩)
    (hb : (⟨2, ![1000, 1]⟩ : Shape).Broadcasts ⟨2, ![1000, n]⟩) (p : Fin 1000) (q : Fin n) :
    rowNorm A hr hb (ix2 p q)
      = max (Ideal.div (A (ix2 p q))
              (max (Ideal.sqrt (∑ j : Fin n, A (ix2 p j) * A (ix2 p j))) (Ideal.ofBits .f32 0x2B8CBCCC#32)))
          (Ideal.ofBits .f32 0x00000000#32) := by
  unfold rowNorm
  refine (maximumf_apply _ _ (ix2 p q)).trans (congrArg₂ max ?_ rfl)
  refine (divf_apply _ _ (ix2 p q)).trans (congrArg (Ideal.div (A (ix2 p q))) ?_)
  refine (broadcastTo_a1_ab_apply _ hb p q).trans ?_
  refine (maximumf_apply _ _ (ix2 p (0 : Fin 1))).trans (congrArg₂ max ?_ rfl)
  refine (sqrt_apply _ (ix2 p (0 : Fin 1))).trans (congrArg Ideal.sqrt ?_)
  refine (shapeCast_a_a1_apply _ shapeCasts_S1000_S1000x1 p (0 : Fin 1)).trans ?_
  exact rowSum_apply (mulf A A) hr (.inl rfl) rfl p

/-! ## Body 0 (width 512) -/

/-- The affine part of kernel body 0, as the body computes it: the two contractions into zero accumulators, added, plus
    the bias row broadcast over the rows. -/
def aff0 (v0 v3 : Vec Ideal S1000x512 .f32) (wl wr : Vec Ideal S512x512 .f32) (bias : Vec Ideal S1x512 .f32) :
    FVec Ideal S1000x512 .f32 :=
  addf
    (addf
      (matmul dot_S1000x512_S512x512_S1000x512_1_0_0_1_n_n none
        (truncf .bf16 (shapeCast S1000x512 v0 shapeCasts_S1000x512_S1000x512) bitsLt_bf16_f32 : FVec Ideal S1000x512 .bf16)
        (transpose S512x512 [1, 0] (truncf .bf16 wl bitsLt_bf16_f32 : FVec Ideal S512x512 .bf16) transposes_S512x512_p1_0_S512x512)
        (constant S1000x512 .f32 0x00000000#32))
      (matmul dot_S1000x512_S512x512_S1000x512_1_0_0_1_n_n none
        (truncf .bf16 v3 bitsLt_bf16_f32 : FVec Ideal S1000x512 .bf16)
        (transpose S512x512 [1, 0] (truncf .bf16 wr bitsLt_bf16_f32 : FVec Ideal S512x512 .bf16) transposes_S512x512_p1_0_S512x512)
        (constant S1000x512 .f32 0x00000000#32)))
    (broadcastTo S1000x512 (shapeCast S1x512 bias shapeCasts_S1x512_S1x512) broadcasts_S1x512_S1000x512)

/-- Entry `(p, q)` of body 0's affine part is the specification's affine part of row `p` at feature `q`: each
    contraction is the row against row `q` of the weight matrix (the transposed operand read at `(k, q)` is the weight
    at `(q, k)`), the change of float format is the identity, and the bias row is read at `q`. -/
theorem aff0_apply (v0 v3 : Vec Ideal S1000x512 .f32) (wl wr : Vec Ideal S512x512 .f32) (bias : Vec Ideal S1x512 .f32)
    (p : Fin 1000) (q : Fin 512) :
    aff0 v0 v3 wl wr bias (ix2 p q)
      = Cert.Sage.lin (fun k => v0 (ix2 p k)) (fun k => v3 (ix2 p k)) (fun j k => wl (ix2 j k)) (fun j k => wr (ix2 j k))
          (fun j => bias (ix2 (0 : Fin 1) j)) q := by
  unfold aff0 Cert.Sage.lin
  refine congrArg₂ (· + ·) (congrArg₂ (· + ·) ?_ ?_) ?_
  · refine (matmul512_apply _ _ p q).trans (Finset.sum_congr rfl fun k _ => congrArg₂ (· * ·) ?_ ?_)
    · exact congrFun (shapeCast_self v0 shapeCasts_S1000x512_S1000x512) (ix2 p k)
    · exact transpose_ix2_apply (truncf .bf16 wl bitsLt_bf16_f32 : FVec Ideal S512x512 .bf16) transposes_S512x512_p1_0_S512x512 k q
  · refine (matmul512_apply _ _ p q).trans (Finset.sum_congr rfl fun k _ => congrArg₂ (· * ·) ?_ ?_)
    · rfl
    · exact transpose_ix2_apply (truncf .bf16 wr bitsLt_bf16_f32 : FVec Ideal S512x512 .bf16) transposes_S512x512_p1_0_S512x512 k q
  · refine (broadcastTo_1b_ab_apply _ broadcasts_S1x512_S1000x512 p q).trans ?_
    exact congrFun (shapeCast_self bias shapeCasts_S1x512_S1x512) (ix2 (0 : Fin 1) q)

/-- Body 0's stored value is the row normalisation of its affine part: the two are the same term. -/
theorem pay0_norm (v0 v3 : Vec Ideal S1000x512 .f32) (v5 v7 : Vec Ideal S512x512 .f32) (v14 : Vec Ideal S1x512 .f32) :
    k0_pay1 (F := Ideal) v0 v3 v5 v7 v14 = rowNorm (n := 512) (aff0 v0 v3 v5 v7 v14) reduces_S1000x512_S1000 broadcasts_S1000x1_S1000x512 := rfl

/-- Entry `(p, q)` of what body 0 stores is the specification's output feature `q` of row `p`. -/
theorem pay0_apply (v0 v3 : Vec Ideal S1000x512 .f32) (v5 v7 : Vec Ideal S512x512 .f32) (v14 : Vec Ideal S1x512 .f32) (p : Fin 1000) (q : Fin 512) :
    Cert.KernelIdeal.Gen.k0_pay1 (F := Ideal) v0 v3 v5 v7 v14 (ValueIdx.ix2 p q)
      = Cert.Sage.rowOut (fun k => v0 (ValueIdx.ix2 p k)) (fun k => v3 (ValueIdx.ix2 p k))
          (fun j k => v5 (ValueIdx.ix2 j k)) (fun j k => v7 (ValueIdx.ix2 j k))
          (fun j => v14 (ValueIdx.ix2 (0 : Fin 1) j)) q := by
  refine (congrFun (pay0_norm v0 v3 v5 v7 v14) (ix2 p q)).trans ((rowNorm_apply _ _ _ p q).trans ?_)
  unfold Cert.Sage.rowOut
  exact congrArg₂ max
    (congrArg₂ Ideal.div (aff0_apply v0 v3 v5 v7 v14 p q)
      (congrArg₂ max
        (congrArg Ideal.sqrt (Finset.sum_congr rfl fun j _ =>
          congrArg₂ (· * ·) (aff0_apply v0 v3 v5 v7 v14 p j) (aff0_apply v0 v3 v5 v7 v14 p j)))
        rfl))
    rfl

/-- So body 0 stores the layer of its loaded blocks, as whole arrays. -/
theorem pay0_eq (v0 v3 : Vec Ideal S1000x512 .f32) (v5 v7 : Vec Ideal S512x512 .f32) (v14 : Vec Ideal S1x512 .f32) :
    Cert.KernelIdeal.Gen.k0_pay1 (F := Ideal) v0 v3 v5 v7 v14
      = Cert.Sage.layer (R := 1000) (n := 512) v0 v3 v5 v7 (fun j => v14 (ValueIdx.ix2 (0 : Fin 1) j)) := by
  funext i
  obtain ⟨p, q, rfl⟩ : ∃ (p : Fin 1000) (q : Fin 512), i = ix2 p q := ⟨i 0, i 1, eq_ix2 i⟩
  exact (pay0_apply v0 v3 v5 v7 v14 p q).trans (Cert.Sage.layer_apply v0 v3 v5 v7 _ p q).symm

/-! ## Body 1 (width 512; both row blocks pass an identity cast) -/

/-- The affine part of kernel body 1, as the body computes it: the two contractions into zero accumulators, added, plus
    the bias row broadcast over the rows. -/
def aff1 (v0 v3 : Vec Ideal S1000x512 .f32) (wl wr : Vec Ideal S512x512 .f32) (bias : Vec Ideal S1x512 .f32) :
    FVec Ideal S1000x512 .f32 :=
  addf
    (addf
      (matmul dot_S1000x512_S512x512_S1000x512_1_0_0_1_n_n none
        (truncf .bf16 (shapeCast S1000x512 v0 shapeCasts_S1000x512_S1000x512) bitsLt_bf16_f32 : FVec Ideal S1000x512 .bf16)
        (transpose S512x512 [1, 0] (truncf .bf16 wl bitsLt_bf16_f32 : FVec Ideal S512x512 .bf16) transposes_S512x512_p1_0_S512x512)
        (constant S1000x512 .f32 0x00000000#32))
      (matmul dot_S1000x512_S512x512_S1000x512_1_0_0_1_n_n none
        (truncf .bf16 (shapeCast S1000x512 v3 shapeCasts_S1000x512_S1000x512) bitsLt_bf16_f32 : FVec Ideal S1000x512 .bf16)
        (transpose S512x512 [1, 0] (truncf .bf16 wr bitsLt_bf16_f32 : FVec Ideal S512x512 .bf16) transposes_S512x512_p1_0_S512x512)
        (constant S1000x512 .f32 0x00000000#32)))
    (broadcastTo S1000x512 (shapeCast S1x512 bias shapeCasts_S1x512_S1x512) broadcasts_S1x512_S1000x512)

/-- Entry `(p, q)` of body 1's affine part is the specification's affine part of row `p` at feature `q`: each
    contraction is the row against row `q` of the weight matrix (the transposed operand read at `(k, q)` is the weight
    at `(q, k)`), the change of float format is the identity, and the bias row is read at `q`. -/
theorem aff1_apply (v0 v3 : Vec Ideal S1000x512 .f32) (wl wr : Vec Ideal S512x512 .f32) (bias : Vec Ideal S1x512 .f32)
    (p : Fin 1000) (q : Fin 512) :
    aff1 v0 v3 wl wr bias (ix2 p q)
      = Cert.Sage.lin (fun k => v0 (ix2 p k)) (fun k => v3 (ix2 p k)) (fun j k => wl (ix2 j k)) (fun j k => wr (ix2 j k))
          (fun j => bias (ix2 (0 : Fin 1) j)) q := by
  unfold aff1 Cert.Sage.lin
  refine congrArg₂ (· + ·) (congrArg₂ (· + ·) ?_ ?_) ?_
  · refine (matmul512_apply _ _ p q).trans (Finset.sum_congr rfl fun k _ => congrArg₂ (· * ·) ?_ ?_)
    · exact congrFun (shapeCast_self v0 shapeCasts_S1000x512_S1000x512) (ix2 p k)
    · exact transpose_ix2_apply (truncf .bf16 wl bitsLt_bf16_f32 : FVec Ideal S512x512 .bf16) transposes_S512x512_p1_0_S512x512 k q
  · refine (matmul512_apply _ _ p q).trans (Finset.sum_congr rfl fun k _ => congrArg₂ (· * ·) ?_ ?_)
    · exact congrFun (shapeCast_self v3 shapeCasts_S1000x512_S1000x512) (ix2 p k)
    · exact transpose_ix2_apply (truncf .bf16 wr bitsLt_bf16_f32 : FVec Ideal S512x512 .bf16) transposes_S512x512_p1_0_S512x512 k q
  · refine (broadcastTo_1b_ab_apply _ broadcasts_S1x512_S1000x512 p q).trans ?_
    exact congrFun (shapeCast_self bias shapeCasts_S1x512_S1x512) (ix2 (0 : Fin 1) q)

/-- Body 1's stored value is the row normalisation of its affine part: the two are the same term. -/
theorem pay1_norm (v0 v3 : Vec Ideal S1000x512 .f32) (v6 v8 : Vec Ideal S512x512 .f32) (v15 : Vec Ideal S1x512 .f32) :
    k1_pay1 (F := Ideal) v0 v3 v6 v8 v15 = rowNorm (n := 512) (aff1 v0 v3 v6 v8 v15) reduces_S1000x512_S1000 broadcasts_S1000x1_S1000x512 := rfl

/-- Entry `(p, q)` of what body 1 stores is the specification's output feature `q` of row `p`. -/
theorem pay1_apply (v0 v3 : Vec Ideal S1000x512 .f32) (v6 v8 : Vec Ideal S512x512 .f32) (v15 : Vec Ideal S1x512 .f32) (p : Fin 1000) (q : Fin 512) :
    Cert.KernelIdeal.Gen.k1_pay1 (F := Ideal) v0 v3 v6 v8 v15 (ValueIdx.ix2 p q)
      = Cert.Sage.rowOut (fun k => v0 (ValueIdx.ix2 p k)) (fun k => v3 (ValueIdx.ix2 p k))
          (fun j k => v6 (ValueIdx.ix2 j k)) (fun j k => v8 (ValueIdx.ix2 j k))
          (fun j => v15 (ValueIdx.ix2 (0 : Fin 1) j)) q := by
  refine (congrFun (pay1_norm v0 v3 v6 v8 v15) (ix2 p q)).trans ((rowNorm_apply _ _ _ p q).trans ?_)
  unfold Cert.Sage.rowOut
  exact congrArg₂ max
    (congrArg₂ Ideal.div (aff1_apply v0 v3 v6 v8 v15 p q)
      (congrArg₂ max
        (congrArg Ideal.sqrt (Finset.sum_congr rfl fun j _ =>
          congrArg₂ (· * ·) (aff1_apply v0 v3 v6 v8 v15 p j) (aff1_apply v0 v3 v6 v8 v15 p j)))
        rfl))
    rfl

/-- So body 1 stores the layer of its loaded blocks, as whole arrays. -/
theorem pay1_eq (v0 v3 : Vec Ideal S1000x512 .f32) (v6 v8 : Vec Ideal S512x512 .f32) (v15 : Vec Ideal S1x512 .f32) :
    Cert.KernelIdeal.Gen.k1_pay1 (F := Ideal) v0 v3 v6 v8 v15
      = Cert.Sage.layer (R := 1000) (n := 512) v0 v3 v6 v8 (fun j => v15 (ValueIdx.ix2 (0 : Fin 1) j)) := by
  funext i
  obtain ⟨p, q, rfl⟩ : ∃ (p : Fin 1000) (q : Fin 512), i = ix2 p q := ⟨i 0, i 1, eq_ix2 i⟩
  exact (pay1_apply v0 v3 v6 v8 v15 p q).trans (Cert.Sage.layer_apply v0 v3 v6 v8 _ p q).symm

/-! ## Body 2 (width 256) -/

/-- The affine part of kernel body 2, as the body computes it: the two contractions into zero accumulators, added, plus
    the bias row broadcast over the rows. -/
def aff2 (v0 v3 : Vec Ideal S1000x512 .f32) (wl wr : Vec Ideal S256x512 .f32) (bias : Vec Ideal S1x256 .f32) :
    FVec Ideal S1000x256 .f32 :=
  addf
    (addf
      (matmul dot_S1000x512_S512x256_S1000x256_1_0_0_1_n_n none
        (truncf .bf16 (shapeCast S1000x512 v0 shapeCasts_S1000x512_S1000x512) bitsLt_bf16_f32 : FVec Ideal S1000x512 .bf16)
        (transpose S512x256 [1, 0] (truncf .bf16 wl bitsLt_bf16_f32 : FVec Ideal S256x512 .bf16) transposes_S256x512_p1_0_S512x256)
        (constant S1000x256 .f32 0x00000000#32))
      (matmul dot_S1000x512_S512x256_S1000x256_1_0_0_1_n_n none
        (truncf .bf16 (shapeCast S1000x512 v3 shapeCasts_S1000x512_S1000x512) bitsLt_bf16_f32 : FVec Ideal S1000x512 .bf16)
        (transpose S512x256 [1, 0] (truncf .bf16 wr bitsLt_bf16_f32 : FVec Ideal S256x512 .bf16) transposes_S256x512_p1_0_S512x256)
        (constant S1000x256 .f32 0x00000000#32)))
    (broadcastTo S1000x256 (shapeCast S1x256 bias shapeCasts_S1x256_S1x256) broadcasts_S1x256_S1000x256)

/-- Entry `(p, q)` of body 2's affine part is the specification's affine part of row `p` at feature `q`: each
    contraction is the row against row `q` of the weight matrix (the transposed operand read at `(k, q)` is the weight
    at `(q, k)`), the change of float format is the identity, and the bias row is read at `q`. -/
theorem aff2_apply (v0 v3 : Vec Ideal S1000x512 .f32) (wl wr : Vec Ideal S256x512 .f32) (bias : Vec Ideal S1x256 .f32)
    (p : Fin 1000) (q : Fin 256) :
    aff2 v0 v3 wl wr bias (ix2 p q)
      = Cert.Sage.lin (fun k => v0 (ix2 p k)) (fun k => v3 (ix2 p k)) (fun j k => wl (ix2 j k)) (fun j k => wr (ix2 j k))
          (fun j => bias (ix2 (0 : Fin 1) j)) q := by
  unfold aff2 Cert.Sage.lin
  refine congrArg₂ (· + ·) (congrArg₂ (· + ·) ?_ ?_) ?_
  · refine (matmul256_apply _ _ p q).trans (Finset.sum_congr rfl fun k _ => congrArg₂ (· * ·) ?_ ?_)
    · exact congrFun (shapeCast_self v0 shapeCasts_S1000x512_S1000x512) (ix2 p k)
    · exact transpose_ix2_apply (truncf .bf16 wl bitsLt_bf16_f32 : FVec Ideal S256x512 .bf16) transposes_S256x512_p1_0_S512x256 k q
  · refine (matmul256_apply _ _ p q).trans (Finset.sum_congr rfl fun k _ => congrArg₂ (· * ·) ?_ ?_)
    · exact congrFun (shapeCast_self v3 shapeCasts_S1000x512_S1000x512) (ix2 p k)
    · exact transpose_ix2_apply (truncf .bf16 wr bitsLt_bf16_f32 : FVec Ideal S256x512 .bf16) transposes_S256x512_p1_0_S512x256 k q
  · refine (broadcastTo_1b_ab_apply _ broadcasts_S1x256_S1000x256 p q).trans ?_
    exact congrFun (shapeCast_self bias shapeCasts_S1x256_S1x256) (ix2 (0 : Fin 1) q)

/-- Body 2's stored value is the row normalisation of its affine part: the two are the same term. -/
theorem pay2_norm (v0 v3 : Vec Ideal S1000x512 .f32) (v6 v8 : Vec Ideal S256x512 .f32) (v15 : Vec Ideal S1x256 .f32) :
    k2_pay1 (F := Ideal) v0 v3 v6 v8 v15 = rowNorm (n := 256) (aff2 v0 v3 v6 v8 v15) reduces_S1000x256_S1000 broadcasts_S1000x1_S1000x256 := rfl

/-- Entry `(p, q)` of what body 2 stores is the specification's output feature `q` of row `p`. -/
theorem pay2_apply (v0 v3 : Vec Ideal S1000x512 .f32) (v6 v8 : Vec Ideal S256x512 .f32) (v15 : Vec Ideal S1x256 .f32) (p : Fin 1000) (q : Fin 256) :
    Cert.KernelIdeal.Gen.k2_pay1 (F := Ideal) v0 v3 v6 v8 v15 (ValueIdx.ix2 p q)
      = Cert.Sage.rowOut (fun k => v0 (ValueIdx.ix2 p k)) (fun k => v3 (ValueIdx.ix2 p k))
          (fun j k => v6 (ValueIdx.ix2 j k)) (fun j k => v8 (ValueIdx.ix2 j k))
          (fun j => v15 (ValueIdx.ix2 (0 : Fin 1) j)) q := by
  refine (congrFun (pay2_norm v0 v3 v6 v8 v15) (ix2 p q)).trans ((rowNorm_apply _ _ _ p q).trans ?_)
  unfold Cert.Sage.rowOut
  exact congrArg₂ max
    (congrArg₂ Ideal.div (aff2_apply v0 v3 v6 v8 v15 p q)
      (congrArg₂ max
        (congrArg Ideal.sqrt (Finset.sum_congr rfl fun j _ =>
          congrArg₂ (· * ·) (aff2_apply v0 v3 v6 v8 v15 p j) (aff2_apply v0 v3 v6 v8 v15 p j)))
        rfl))
    rfl

/-- So body 2 stores the layer of its loaded blocks, as whole arrays. -/
theorem pay2_eq (v0 v3 : Vec Ideal S1000x512 .f32) (v6 v8 : Vec Ideal S256x512 .f32) (v15 : Vec Ideal S1x256 .f32) :
    Cert.KernelIdeal.Gen.k2_pay1 (F := Ideal) v0 v3 v6 v8 v15
      = Cert.Sage.layer (R := 1000) (n := 256) v0 v3 v6 v8 (fun j => v15 (ValueIdx.ix2 (0 : Fin 1) j)) := by
  funext i
  obtain ⟨p, q, rfl⟩ : ∃ (p : Fin 1000) (q : Fin 256), i = ix2 p q := ⟨i 0, i 1, eq_ix2 i⟩
  exact (pay2_apply v0 v3 v6 v8 v15 p q).trans (Cert.Sage.layer_apply v0 v3 v6 v8 _ p q).symm

end Cert.Sage.Kern

end
-- ==== Proof.KernelFold.lean ====
/-
  The buffer contents at the entry of each launch, read as functions of the arguments.

  The program computes, once, from the edge list: the source index of every edge, its destination index, and the number of
  edges arriving at every node. Before each launch it aggregates the current node features: every edge gathers the row of
  its source node (a negative index counted from the end), the rows are added up per destination node, and each sum is
  divided by the node's edge count, bounded below by one. The three aggregations are ONE function `aggOf` of the current
  features, the two index vectors and the counts; the index vectors and the counts are written before the first launch
  and no later operation or launch writes them, so each later stretch finds them as the first stretch left them.
-/
import proofs.«161853_j25220047962465_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## The aggregation, as a function -/

/-- Every edge's source node: row 0 of the edge list. -/
def srcOf (e : (⟨S2x160000, .i32⟩ : BufTy).Contents (Elt F)) : (⟨S160000, .i32⟩ : BufTy).Contents (Elt F) :=
  shapeCast _ (extractStridedSlice S1x160000 ![0, 0] e slices_S2x160000_S1x160000_0_0) shapeCasts_S1x160000_S160000

/-- Every edge's destination node: row 1 of the edge list. -/
def dstOf (e : (⟨S2x160000, .i32⟩ : BufTy).Contents (Elt F)) : (⟨S160000, .i32⟩ : BufTy).Contents (Elt F) :=
  shapeCast _ (extractStridedSlice S1x160000 ![1, 0] e slices_S2x160000_S1x160000_1_0) shapeCasts_S1x160000_S160000

/-- The number of edges arriving at every node: ones added up per destination. -/
def cntOf (d : (⟨S160000, .i32⟩ : BufTy).Contents (Elt F)) : (⟨S10000, .f32⟩ : BufTy).Contents (Elt F) :=
  Host.scatterAdd scatter_S10000_S160000x1_S160000_n_0_0_1
    (broadcastInDim S10000 ![] bcast_S_S10000 (constant S_ .f32 0x00000000#32))
    (broadcastInDim S160000x1 ![0] bcast_S160000_S160000x1_0 d)
    (broadcastInDim S160000 ![] bcast_S_S160000 (constant S_ .f32 0x3F800000#32))

/-- The mean of the neighbours' rows: the source rows gathered (a negative index wraps once), added up per destination,
    divided by the edge count bounded below by one. -/
def aggOf (cur : (⟨S10000x512, .f32⟩ : BufTy).Contents (Elt F)) (s d : (⟨S160000, .i32⟩ : BufTy).Contents (Elt F)) (cn : (⟨S10000, .f32⟩ : BufTy).Contents (Elt F)) :
    (⟨S10000x512, .f32⟩ : BufTy).Contents (Elt F) :=
  Host.divf
    (Host.scatterAdd scatter_S10000x512_S160000x1_S160000x512_1_0_0_1
      (broadcastInDim S10000x512 ![] bcast_S_S10000x512 (constant S_ .f32 0x00000000#32))
      (broadcastInDim S160000x1 ![0] bcast_S160000_S160000x1_0 d)
      (Host.gather gather_S10000x512_S160000x1_S160000x512_1_0_n_n_0_1_1512 cur
        (broadcastInDim S160000x1 ![0] bcast_S160000_S160000x1_0
          (select (cmpi .slt s (broadcastInDim S160000 ![] bcast_S_S160000 (constantI S_ 32 0#32)))
            (addi s (broadcastInDim S160000 ![] bcast_S_S160000 (constantI S_ 32 10000#32))) s))))
    (broadcastInDim S10000x512 ![0, 1] bcast_S10000x1_S10000x512_0_1
      (broadcastInDim S10000x1 ![0] bcast_S10000_S10000x1_0
        (maximumf cn (broadcastInDim S10000 ![] bcast_S_S10000 (constant S_ .f32 0x3F800000#32)))))

variable (m : (ℓ : Loc nD τ sig) → Buf (Elt F) ℓ) (ρ : Dev nD → PrngReg)

/-! ## The first stretch of host operations -/

theorem W1_src (c : Dev nD) : W1 m ρ c (Proc.devRef .tc main_v1) = srcOf (m ((c : Thread nD τ).loc main_arg1)) := by
  show StableHlo.after hostOps0 (W0 m ρ c) (Proc.devRef .tc main_v1) = _
  after_results_simp <;> rfl
theorem W1_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl
theorem W1_cnt (c : Dev nD) : W1 m ρ c (Proc.devRef .tc main_v7) = cntOf (dstOf (m ((c : Thread nD τ).loc main_arg1))) := by
  show StableHlo.after hostOps0 (W0 m ρ c) (Proc.devRef .tc main_v7) = _
  after_results_simp <;> rfl
theorem W1_mean (c : Dev nD) : W1 m ρ c (Proc.devRef .tc main_v22)
    = aggOf (m ((c : Thread nD τ).loc main_arg0)) (srcOf (m ((c : Thread nD τ).loc main_arg1))) (dstOf (m ((c : Thread nD τ).loc main_arg1)))
        (cntOf (dstOf (m ((c : Thread nD τ).loc main_arg1)))) := by
  show StableHlo.after hostOps0 (W0 m ρ c) (Proc.devRef .tc main_v22) = _
  after_results_simp <;> rfl
theorem W1_bias (c : Dev nD) : W1 m ρ c (Proc.devRef .tc main_v23) = shapeCast _ (m ((c : Thread nD τ).loc main_arg3)) shapeCasts_S512_S1x512 := by
  show StableHlo.after hostOps0 (W0 m ρ c) (Proc.devRef .tc main_v23) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

/-! ## The second stretch: from the first launch's exit -/

theorem W3_mean (c : Dev nD) : W3 m ρ c (Proc.devRef .tc main_v39)
    = aggOf (W2 m ρ c (Proc.devRef .tc main_v24)) (W2 m ρ c (Proc.devRef .tc main_v1)) (W2 m ρ c (Proc.devRef .tc main_v3))
        (W2 m ρ c (Proc.devRef .tc main_v7)) := by
  show StableHlo.after hostOps1 (W2 m ρ c) (Proc.devRef .tc main_v39) = _
  after_results_simp <;> rfl
theorem W3_bias (c : Dev nD) : W3 m ρ c (Proc.devRef .tc main_v40) = shapeCast _ (W2 m ρ c (Proc.devRef .tc main_arg6)) shapeCasts_S512_S1x512 := by
  show StableHlo.after hostOps1 (W2 m ρ c) (Proc.devRef .tc main_v40) = _
  after_results_simp <;> rfl
/-- A buffer the second stretch does not write. -/
theorem W3_keep (c : Dev nD) (b : Ref sig .tc)
    (hb : ∀ op ∈ (hostOps1 : List (HloOp τ sig (Elt F))), Proc.devRef .tc b ∉ op.writes) :
    W3 m ρ c (Proc.devRef .tc b) = W2 m ρ c (Proc.devRef .tc b) :=
  StableHlo.after_of_forall_not_mem _ _ hb

/-! ## The third stretch: from the second launch's exit -/

theorem W5_mean (c : Dev nD) : W5 m ρ c (Proc.devRef .tc main_v56)
    = aggOf (W4 m ρ c (Proc.devRef .tc main_v41)) (W4 m ρ c (Proc.devRef .tc main_v1)) (W4 m ρ c (Proc.devRef .tc main_v3))
        (W4 m ρ c (Proc.devRef .tc main_v7)) := by
  show StableHlo.after hostOps2 (W4 m ρ c) (Proc.devRef .tc main_v56) = _
  after_results_simp <;> rfl
theorem W5_bias (c : Dev nD) : W5 m ρ c (Proc.devRef .tc main_v57) = shapeCast _ (W4 m ρ c (Proc.devRef .tc main_arg9)) shapeCasts_S256_S1x256 := by
  show StableHlo.after hostOps2 (W4 m ρ c) (Proc.devRef .tc main_v57) = _
  after_results_simp <;> rfl
theorem W5_keep (c : Dev nD) (b : Ref sig .tc)
    (hb : ∀ op ∈ (hostOps2 : List (HloOp τ sig (Elt F))), Proc.devRef .tc b ∉ op.writes) :
    W5 m ρ c (Proc.devRef .tc b) = W4 m ρ c (Proc.devRef .tc b) :=
  StableHlo.after_of_forall_not_mem _ _ hb

end Cert.KernelIdeal.Fold

end
-- ==== Proof.SageBlocks.lean ====
/-
  A block of rows of the layer is the layer of the block.

  The layer acts row by row: output row r reads row r of the aggregated means and row r of the node features, and the
  whole of the two weight matrices and the bias. So if a block `a`, `x` of `1000` rows holds rows
  `T·1000 … T·1000 + 999` of whole arrays `A`, `X` (and the weights and bias are read whole), then entry (p, q) of the
  layer of the block is entry (T·1000 + p, q) of the layer of the whole arrays.
-/
import proofs.«161853_j25220047962465_1_alg».proof.Proof.SageRow

noncomputable section

namespace Cert.Sage

open Idealize.ShloMosaic Idealize.ShloMosaic.ValueIdx

/-- Row `T·1000 + p` of an array of 10000 rows, as an index. -/
abbrev rowAt (T : ℕ) (hT : T < 10) (p : Fin 1000) : Fin 10000 := ⟨T * 1000 + p.val, by have := p.isLt; omega⟩

theorem layer_block {n : ℕ} (A X : (⟨2, ![10000, 512]⟩ : Shape).Idx → EReal) (WL WR : (⟨2, ![n, 512]⟩ : Shape).Idx → EReal)
    (B : Fin n → EReal)
    (a x : (⟨2, ![1000, 512]⟩ : Shape).Idx → EReal) (wl wr : (⟨2, ![n, 512]⟩ : Shape).Idx → EReal) (b : Fin n → EReal)
    (T : ℕ) (hT : T < 10)
    (ha : ∀ (p : Fin 1000) (k : Fin 512), a (ix2 p k) = A (ix2 (rowAt T hT p) k))
    (hx : ∀ (p : Fin 1000) (k : Fin 512), x (ix2 p k) = X (ix2 (rowAt T hT p) k))
    (hwl : ∀ (j : Fin n) (k : Fin 512), wl (ix2 j k) = WL (ix2 j k))
    (hwr : ∀ (j : Fin n) (k : Fin 512), wr (ix2 j k) = WR (ix2 j k))
    (hb : ∀ j : Fin n, b j = B j)
    (p : Fin 1000) (q : Fin n) :
    layer (R := 1000) (n := n) a x wl wr b (ix2 p q) = layer (R := 10000) (n := n) A X WL WR B (ix2 (rowAt T hT p) q) := by
  have hb' : b = B := funext hb
  rw [layer_apply, layer_apply, hb']
  simp only [ha, hx, hwl, hwr]

end Cert.Sage

end
-- ==== Proof.KernelBlocks.lean ====
/-
  From blocks to arrays, for each of the three launches of the dense layer.

  A launch walks ten grid points; at point t it stages rows t·1000 … t·1000 + 999 of the aggregated means and of the
  node features, the whole of the two weight matrices and of the bias row, runs the body, and writes the body's
  [1000, n] result back as rows t·1000 … of the output. The body's value is the layer function of its blocks (a
  hypothesis here: it is proved where the body's arithmetic is read), a block of rows of the layer is the layer of the
  block, and the ten blocks cover the output: so after the launch the output array is the layer function of the
  launch's input arrays, as the launch found them.
-/
import proofs.«161853_j25220047962465_1_alg».proof.Proof.Gen.KernelIdeal.Frame
import proofs.«161853_j25220047962465_1_alg».proof.Proof.SageBlocks
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffer contents when a launch is entered: each launch's half is stated at any such contents
variable (V : (c : Dev nD) → (b : Ref sig .tc) → Buf (Elt Ideal) ((c : Thread nD τ).loc b))

theorem hz : (![0, 0] : Fin 2 → Nat) = fun _ => 0 := funext fun a => by fin_cases a <;> rfl

/-! ## Launch 0: main_v24 = the layer of (main_v22, main_arg0, main_arg2, main_arg4, main_v23) -/

/-- The printed index maps of launch 0, decided over its ten grid points: the two row arrays and the output move one
    block of 1000 rows per point; the weights and the bias stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function launch 0 computes, of the arrays as the launch finds them. -/
abbrev G0 (c : Dev nD) : S10000x512.Idx → EReal :=
  Sage.layer (R := 10000) (n := 512) (V c main_v22) (V c main_arg0) (V c main_arg2) (V c main_arg4) (fun q => V c main_v23 (ix2 (0 : Fin 1) q))

/-- What grid point `t` writes back is block `t` (rows t·1000 … t·1000 + 999) of that function: the body's value is the
    layer of the point's blocks, and those blocks are the matching rows of the row arrays and the whole of the
    weights and the bias. -/
theorem flushed0
    (hpay : ∀ (v0 v3 : Vec Ideal S1000x512 .f32) (v5 v7 : Vec Ideal S512x512 .f32) (v14 : Vec Ideal S1x512 .f32),
      k0_pay1 (F := Ideal) v0 v3 v5 v7 v14 = Sage.layer (R := 1000) (n := 512) v0 v3 v5 v7 (fun j => v14 (ix2 (0 : Fin 1) j)))
    (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S1000x512) hz, View.ld_unit_zero (S := S512x512) hz, View.ld_unit_zero (S := S1x512) hz]
  rw [hpay]
  obtain ⟨e00, e01, e10, e11, e20, e21, e30, e31, e40, e41, e50, e51⟩ := idx0 t
  have hT : t.val < 10 := by have h := t.isLt; have hN : cfg0.N = 10 := N_0; omega
  funext j
  obtain ⟨p, q, rfl⟩ : ∃ (p : Fin 1000) (q : Fin 512), j = ix2 p q := ⟨j 0, j 1, eq_ix2 j⟩
  have e5 : ((cfg0.win 5).blk t).view.emb (ix2 p q) = ix2 (Sage.rowAt t.val hT p) q := by
    funext a; apply Fin.ext
    match a with
    | ⟨0, _⟩ => show win0_5.index t (0 : Fin 2) * 1000 + 1 * p.val = t.val * 1000 + p.val; omega
    | ⟨1, _⟩ => show win0_5.index t (1 : Fin 2) * 512 + 1 * q.val = q.val; omega
  show Sage.layer (R := 1000) (n := 512) (iblk0 V c 0 t) (iblk0 V c 1 t) (iblk0 V c 2 t) (iblk0 V c 3 t)
      (fun j => iblk0 V c 4 t (ix2 (0 : Fin 1) j)) (ix2 p q) = G0 V c (((cfg0.win 5).blk t).view.emb (ix2 p q))
  rw [e5]
  refine Sage.layer_block _ _ _ _ _ _ _ _ _ _ t.val hT ?_ ?_ ?_ ?_ ?_ p q
  · intro p k
    show V c main_v22 (((cfg0.win 0).blk t).view.emb (ix2 p k)) = V c main_v22 (ix2 (Sage.rowAt t.val hT p) k)
    refine congrArg _ (funext fun a => Fin.ext ?_)
    match a with
    | ⟨0, _⟩ => show win0_0.index t (0 : Fin 2) * 1000 + 1 * p.val = t.val * 1000 + p.val; omega
    | ⟨1, _⟩ => show win0_0.index t (1 : Fin 2) * 512 + 1 * k.val = k.val; omega
  · intro p k
    show V c main_arg0 (((cfg0.win 1).blk t).view.emb (ix2 p k)) = V c main_arg0 (ix2 (Sage.rowAt t.val hT p) k)
    refine congrArg _ (funext fun a => Fin.ext ?_)
    match a with
    | ⟨0, _⟩ => show win0_1.index t (0 : Fin 2) * 1000 + 1 * p.val = t.val * 1000 + p.val; omega
    | ⟨1, _⟩ => show win0_1.index t (1 : Fin 2) * 512 + 1 * k.val = k.val; omega
  · intro j k
    show V c main_arg2 (((cfg0.win 2).blk t).view.emb (ix2 j k)) = V c main_arg2 (ix2 j k)
    refine congrArg _ (funext fun a => Fin.ext ?_)
    match a with
    | ⟨0, _⟩ => show win0_2.index t (0 : Fin 2) * 512 + 1 * j.val = j.val; omega
    | ⟨1, _⟩ => show win0_2.index t (1 : Fin 2) * 512 + 1 * k.val = k.val; omega
  · intro j k
    show V c main_arg4 (((cfg0.win 3).blk t).view.emb (ix2 j k)) = V c main_arg4 (ix2 j k)
    refine congrArg _ (funext fun a => Fin.ext ?_)
    match a with
    | ⟨0, _⟩ => show win0_3.index t (0 : Fin 2) * 512 + 1 * j.val = j.val; omega
    | ⟨1, _⟩ => show win0_3.index t (1 : Fin 2) * 512 + 1 * k.val = k.val; omega
  · intro j
    show V c main_v23 (((cfg0.win 4).blk t).view.emb (ix2 (0 : Fin 1) j)) = V c main_v23 (ix2 (0 : Fin 1) j)
    refine congrArg _ (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 512 + 1 * j.val = j.val; omega

/-- Row r of the output lies in the block of point r / 1000, and every point writes its block back: the ten blocks
    cover the array, so after the launch the output array IS the layer function of the launch's input arrays. -/
theorem final0
    (hpay : ∀ (v0 v3 : Vec Ideal S1000x512 .f32) (v5 v7 : Vec Ideal S512x512 .f32) (v14 : Vec Ideal S1x512 .f32),
      k0_pay1 (F := Ideal) v0 v3 v5 v7 v14 = Sage.layer (R := 1000) (n := 512) v0 v3 v5 v7 (fun j => v14 (ix2 (0 : Fin 1) j)))
    (c : Dev nD) : (dat0 V c).arrAt 5 cfg0.N = G0 V c :=
  (dat0 V c).arrAt_eq_of_cover 5 (G0 V c) (fun t _ => flushed0 V hpay c t) fun i => by
    have hi0 : (i 0).val < 10000 := (i 0).isLt
    have hi1 : (i 1).val < 512 := (i 1).isLt
    have hN : cfg0.N = 10 := N_0
    let t : Fin cfg0.N := ⟨(i 0).val / 1000, by omega⟩
    obtain ⟨e00, e01, e10, e11, e20, e21, e30, e31, e40, e41, e50, e51⟩ := idx0 t
    have ht : t.val = (i 0).val / 1000 := rfl
    refine ⟨t, flush0_5 t, ?_⟩
    show i ∈ ((View.whole main_v24).slice (win0_5.rect t)).set
    rw [View.set_slice_whole, Rect.mem_set_unit]
    intro a
    match a with
    | ⟨0, _⟩ => show win0_5.index t (0 : Fin 2) * 1000 ≤ (i 0).val ∧ (i 0).val < win0_5.index t (0 : Fin 2) * 1000 + 1000; omega
    | ⟨1, _⟩ => show win0_5.index t (1 : Fin 2) * 512 ≤ (i 1).val ∧ (i 1).val < win0_5.index t (1 : Fin 2) * 512 + 512; omega

/-! ## Launch 1: main_v41 = the layer of (main_v39, main_v24, main_arg5, main_arg7, main_v40) -/

/-- The printed index maps of launch 1, decided over its ten grid points: the two row arrays and the output move one
    block of 1000 rows per point; the weights and the bias stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole-array function launch 1 computes, of the arrays as the launch finds them. -/
abbrev G1 (c : Dev nD) : S10000x512.Idx → EReal :=
  Sage.layer (R := 10000) (n := 512) (V c main_v39) (V c main_v24) (V c main_arg5) (V c main_arg7) (fun q => V c main_v40 (ix2 (0 : Fin 1) q))

/-- What grid point `t` writes back is block `t` (rows t·1000 … t·1000 + 999) of that function: the body's value is the
    layer of the point's blocks, and those blocks are the matching rows of the row arrays and the whole of the
    weights and the bias. -/
theorem flushed1
    (hpay : ∀ (v0 v3 : Vec Ideal S1000x512 .f32) (v5 v7 : Vec Ideal S512x512 .f32) (v14 : Vec Ideal S1x512 .f32),
      k1_pay1 (F := Ideal) v0 v3 v5 v7 v14 = Sage.layer (R := 1000) (n := 512) v0 v3 v5 v7 (fun j => v14 (ix2 (0 : Fin 1) j)))
    (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x512) hz, View.ld_unit_zero (S := S1x512) hz]
  rw [hpay]
  obtain ⟨e00, e01, e10, e11, e20, e21, e30, e31, e40, e41, e50, e51⟩ := idx1 t
  have hT : t.val < 10 := by have h := t.isLt; have hN : cfg1.N = 10 := N_1; omega
  funext j
  obtain ⟨p, q, rfl⟩ : ∃ (p : Fin 1000) (q : Fin 512), j = ix2 p q := ⟨j 0, j 1, eq_ix2 j⟩
  have e5 : ((cfg1.win 5).blk t).view.emb (ix2 p q) = ix2 (Sage.rowAt t.val hT p) q := by
    funext a; apply Fin.ext
    match a with
    | ⟨0, _⟩ => show win1_5.index t (0 : Fin 2) * 1000 + 1 * p.val = t.val * 1000 + p.val; omega
    | ⟨1, _⟩ => show win1_5.index t (1 : Fin 2) * 512 + 1 * q.val = q.val; omega
  show Sage.layer (R := 1000) (n := 512) (iblk1 V c 0 t) (iblk1 V c 1 t) (iblk1 V c 2 t) (iblk1 V c 3 t)
      (fun j => iblk1 V c 4 t (ix2 (0 : Fin 1) j)) (ix2 p q) = G1 V c (((cfg1.win 5).blk t).view.emb (ix2 p q))
  rw [e5]
  refine Sage.layer_block _ _ _ _ _ _ _ _ _ _ t.val hT ?_ ?_ ?_ ?_ ?_ p q
  · intro p k
    show V c main_v39 (((cfg1.win 0).blk t).view.emb (ix2 p k)) = V c main_v39 (ix2 (Sage.rowAt t.val hT p) k)
    refine congrArg _ (funext fun a => Fin.ext ?_)
    match a with
    | ⟨0, _⟩ => show win1_0.index t (0 : Fin 2) * 1000 + 1 * p.val = t.val * 1000 + p.val; omega
    | ⟨1, _⟩ => show win1_0.index t (1 : Fin 2) * 512 + 1 * k.val = k.val; omega
  · intro p k
    show V c main_v24 (((cfg1.win 1).blk t).view.emb (ix2 p k)) = V c main_v24 (ix2 (Sage.rowAt t.val hT p) k)
    refine congrArg _ (funext fun a => Fin.ext ?_)
    match a with
    | ⟨0, _⟩ => show win1_1.index t (0 : Fin 2) * 1000 + 1 * p.val = t.val * 1000 + p.val; omega
    | ⟨1, _⟩ => show win1_1.index t (1 : Fin 2) * 512 + 1 * k.val = k.val; omega
  · intro j k
    show V c main_arg5 (((cfg1.win 2).blk t).view.emb (ix2 j k)) = V c main_arg5 (ix2 j k)
    refine congrArg _ (funext fun a => Fin.ext ?_)
    match a with
    | ⟨0, _⟩ => show win1_2.index t (0 : Fin 2) * 512 + 1 * j.val = j.val; omega
    | ⟨1, _⟩ => show win1_2.index t (1 : Fin 2) * 512 + 1 * k.val = k.val; omega
  · intro j k
    show V c main_arg7 (((cfg1.win 3).blk t).view.emb (ix2 j k)) = V c main_arg7 (ix2 j k)
    refine congrArg _ (funext fun a => Fin.ext ?_)
    match a with
    | ⟨0, _⟩ => show win1_3.index t (0 : Fin 2) * 512 + 1 * j.val = j.val; omega
    | ⟨1, _⟩ => show win1_3.index t (1 : Fin 2) * 512 + 1 * k.val = k.val; omega
  · intro j
    show V c main_v40 (((cfg1.win 4).blk t).view.emb (ix2 (0 : Fin 1) j)) = V c main_v40 (ix2 (0 : Fin 1) j)
    refine congrArg _ (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 512 + 1 * j.val = j.val; omega

/-- Row r of the output lies in the block of point r / 1000, and every point writes its block back: the ten blocks
    cover the array, so after the launch the output array IS the layer function of the launch's input arrays. -/
theorem final1
    (hpay : ∀ (v0 v3 : Vec Ideal S1000x512 .f32) (v5 v7 : Vec Ideal S512x512 .f32) (v14 : Vec Ideal S1x512 .f32),
      k1_pay1 (F := Ideal) v0 v3 v5 v7 v14 = Sage.layer (R := 1000) (n := 512) v0 v3 v5 v7 (fun j => v14 (ix2 (0 : Fin 1) j)))
    (c : Dev nD) : (dat1 V c).arrAt 5 cfg1.N = G1 V c :=
  (dat1 V c).arrAt_eq_of_cover 5 (G1 V c) (fun t _ => flushed1 V hpay c t) fun i => by
    have hi0 : (i 0).val < 10000 := (i 0).isLt
    have hi1 : (i 1).val < 512 := (i 1).isLt
    have hN : cfg1.N = 10 := N_1
    let t : Fin cfg1.N := ⟨(i 0).val / 1000, by omega⟩
    obtain ⟨e00, e01, e10, e11, e20, e21, e30, e31, e40, e41, e50, e51⟩ := idx1 t
    have ht : t.val = (i 0).val / 1000 := rfl
    refine ⟨t, flush1_5 t, ?_⟩
    show i ∈ ((View.whole main_v41).slice (win1_5.rect t)).set
    rw [View.set_slice_whole, Rect.mem_set_unit]
    intro a
    match a with
    | ⟨0, _⟩ => show win1_5.index t (0 : Fin 2) * 1000 ≤ (i 0).val ∧ (i 0).val < win1_5.index t (0 : Fin 2) * 1000 + 1000; omega
    | ⟨1, _⟩ => show win1_5.index t (1 : Fin 2) * 512 ≤ (i 1).val ∧ (i 1).val < win1_5.index t (1 : Fin 2) * 512 + 512; omega

/-! ## Launch 2: main_v58 = the layer of (main_v56, main_v41, main_arg8, main_arg10, main_v57) -/

/-- The printed index maps of launch 2, decided over its ten grid points: the two row arrays and the output move one
    block of 1000 rows per point; the weights and the bias stay at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole-array function launch 2 computes, of the arrays as the launch finds them. -/
abbrev G2 (c : Dev nD) : S10000x256.Idx → EReal :=
  Sage.layer (R := 10000) (n := 256) (V c main_v56) (V c main_v41) (V c main_arg8) (V c main_arg10) (fun q => V c main_v57 (ix2 (0 : Fin 1) q))

/-- What grid point `t` writes back is block `t` (rows t·1000 … t·1000 + 999) of that function: the body's value is the
    layer of the point's blocks, and those blocks are the matching rows of the row arrays and the whole of the
    weights and the bias. -/
theorem flushed2
    (hpay : ∀ (v0 v3 : Vec Ideal S1000x512 .f32) (v5 v7 : Vec Ideal S256x512 .f32) (v14 : Vec Ideal S1x256 .f32),
      k2_pay1 (F := Ideal) v0 v3 v5 v7 v14 = Sage.layer (R := 1000) (n := 256) v0 v3 v5 v7 (fun j => v14 (ix2 (0 : Fin 1) j)))
    (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S1000x512) hz, View.ld_unit_zero (S := S256x512) hz, View.ld_unit_zero (S := S1x256) hz]
  rw [hpay]
  obtain ⟨e00, e01, e10, e11, e20, e21, e30, e31, e40, e41, e50, e51⟩ := idx2 t
  have hT : t.val < 10 := by have h := t.isLt; have hN : cfg2.N = 10 := N_2; omega
  funext j
  obtain ⟨p, q, rfl⟩ : ∃ (p : Fin 1000) (q : Fin 256), j = ix2 p q := ⟨j 0, j 1, eq_ix2 j⟩
  have e5 : ((cfg2.win 5).blk t).view.emb (ix2 p q) = ix2 (Sage.rowAt t.val hT p) q := by
    funext a; apply Fin.ext
    match a with
    | ⟨0, _⟩ => show win2_5.index t (0 : Fin 2) * 1000 + 1 * p.val = t.val * 1000 + p.val; omega
    | ⟨1, _⟩ => show win2_5.index t (1 : Fin 2) * 256 + 1 * q.val = q.val; omega
  show Sage.layer (R := 1000) (n := 256) (iblk2 V c 0 t) (iblk2 V c 1 t) (iblk2 V c 2 t) (iblk2 V c 3 t)
      (fun j => iblk2 V c 4 t (ix2 (0 : Fin 1) j)) (ix2 p q) = G2 V c (((cfg2.win 5).blk t).view.emb (ix2 p q))
  rw [e5]
  refine Sage.layer_block _ _ _ _ _ _ _ _ _ _ t.val hT ?_ ?_ ?_ ?_ ?_ p q
  · intro p k
    show V c main_v56 (((cfg2.win 0).blk t).view.emb (ix2 p k)) = V c main_v56 (ix2 (Sage.rowAt t.val hT p) k)
    refine congrArg _ (funext fun a => Fin.ext ?_)
    match a with
    | ⟨0, _⟩ => show win2_0.index t (0 : Fin 2) * 1000 + 1 * p.val = t.val * 1000 + p.val; omega
    | ⟨1, _⟩ => show win2_0.index t (1 : Fin 2) * 512 + 1 * k.val = k.val; omega
  · intro p k
    show V c main_v41 (((cfg2.win 1).blk t).view.emb (ix2 p k)) = V c main_v41 (ix2 (Sage.rowAt t.val hT p) k)
    refine congrArg _ (funext fun a => Fin.ext ?_)
    match a with
    | ⟨0, _⟩ => show win2_1.index t (0 : Fin 2) * 1000 + 1 * p.val = t.val * 1000 + p.val; omega
    | ⟨1, _⟩ => show win2_1.index t (1 : Fin 2) * 512 + 1 * k.val = k.val; omega
  · intro j k
    show V c main_arg8 (((cfg2.win 2).blk t).view.emb (ix2 j k)) = V c main_arg8 (ix2 j k)
    refine congrArg _ (funext fun a => Fin.ext ?_)
    match a with
    | ⟨0, _⟩ => show win2_2.index t (0 : Fin 2) * 256 + 1 * j.val = j.val; omega
    | ⟨1, _⟩ => show win2_2.index t (1 : Fin 2) * 512 + 1 * k.val = k.val; omega
  · intro j k
    show V c main_arg10 (((cfg2.win 3).blk t).view.emb (ix2 j k)) = V c main_arg10 (ix2 j k)
    refine congrArg _ (funext fun a => Fin.ext ?_)
    match a with
    | ⟨0, _⟩ => show win2_3.index t (0 : Fin 2) * 256 + 1 * j.val = j.val; omega
    | ⟨1, _⟩ => show win2_3.index t (1 : Fin 2) * 512 + 1 * k.val = k.val; omega
  · intro j
    show V c main_v57 (((cfg2.win 4).blk t).view.emb (ix2 (0 : Fin 1) j)) = V c main_v57 (ix2 (0 : Fin 1) j)
    refine congrArg _ (funext fun a => Fin.ext ?_)
    match a with
    | ⟨0, _⟩ => show win2_4.index t (0 : Fin 2) * 1 + 1 * (0 : Fin 1).val = (0 : Fin 1).val; omega
    | ⟨1, _⟩ => show win2_4.index t (1 : Fin 2) * 256 + 1 * j.val = j.val; omega

/-- Row r of the output lies in the block of point r / 1000, and every point writes its block back: the ten blocks
    cover the array, so after the launch the output array IS the layer function of the launch's input arrays. -/
theorem final2
    (hpay : ∀ (v0 v3 : Vec Ideal S1000x512 .f32) (v5 v7 : Vec Ideal S256x512 .f32) (v14 : Vec Ideal S1x256 .f32),
      k2_pay1 (F := Ideal) v0 v3 v5 v7 v14 = Sage.layer (R := 1000) (n := 256) v0 v3 v5 v7 (fun j => v14 (ix2 (0 : Fin 1) j)))
    (c : Dev nD) : (dat2 V c).arrAt 5 cfg2.N = G2 V c :=
  (dat2 V c).arrAt_eq_of_cover 5 (G2 V c) (fun t _ => flushed2 V hpay c t) fun i => by
    have hi0 : (i 0).val < 10000 := (i 0).isLt
    have hi1 : (i 1).val < 256 := (i 1).isLt
    have hN : cfg2.N = 10 := N_2
    let t : Fin cfg2.N := ⟨(i 0).val / 1000, by omega⟩
    obtain ⟨e00, e01, e10, e11, e20, e21, e30, e31, e40, e41, e50, e51⟩ := idx2 t
    have ht : t.val = (i 0).val / 1000 := rfl
    refine ⟨t, flush2_5 t, ?_⟩
    show i ∈ ((View.whole main_v58).slice (win2_5.rect t)).set
    rw [View.set_slice_whole, Rect.mem_set_unit]
    intro a
    match a with
    | ⟨0, _⟩ => show win2_5.index t (0 : Fin 2) * 1000 ≤ (i 0).val ∧ (i 0).val < win2_5.index t (0 : Fin 2) * 1000 + 1000; omega
    | ⟨1, _⟩ => show win2_5.index t (1 : Fin 2) * 256 ≤ (i 1).val ∧ (i 1).val < win2_5.index t (1 : Fin 2) * 256 + 256; omega

end Cert.KernelIdeal.Blocks

end
-- ==== Proof.KernelValue.lean ====
/-
  The idealized kernel's result as a function of the arguments.

  Three layers, each the dense layer function of (the aggregation of the current features, the current features, the two
  weight matrices, the bias), the current features being the node features for the first layer and the previous layer's
  output afterwards. The fold of buffer contents through the program's six segments is opened one segment at a time:
  a launch's output array is the layer function of its five input arrays as the launch finds them (the blocks module),
  a stretch of host operations leaves the aggregation in the next launch's first input array (the fold module), and the
  edge vectors, the counts, the weights and the biases reach every later segment unchanged.
-/
import proofs.«161853_j25220047962465_1_alg».proof.Proof.KernelFold
import proofs.«161853_j25220047962465_1_alg».proof.Proof.KernelBlocks
import Idealize.ShloMosaic.Lib.ValueLayout

set_option maxRecDepth 16384

noncomputable section

namespace Cert.KernelIdeal.Result

open Cert.KernelIdeal Cert.KernelIdeal.Gen Cert.KernelIdeal.Fold Cert.KernelIdeal.Blocks
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-! ## The three layers as functions of the arguments -/

/-- The aggregation of a feature array along the program's edge list. -/
def agg (c : Dev nD) (cur : S10000x512.Idx → EReal) : S10000x512.Idx → EReal :=
  aggOf (F := Ideal) cur (srcOf (m ((c : Thread nD τ).loc main_arg1))) (dstOf (m ((c : Thread nD τ).loc main_arg1))) (cntOf (dstOf (m ((c : Thread nD τ).loc main_arg1))))

def out0 (c : Dev nD) : S10000x512.Idx → EReal :=
  Sage.layer (R := 10000) (n := 512) (agg m c (m ((c : Thread nD τ).loc main_arg0))) (m ((c : Thread nD τ).loc main_arg0)) (m ((c : Thread nD τ).loc main_arg2)) (m ((c : Thread nD τ).loc main_arg4)) (fun q => (m ((c : Thread nD τ).loc main_arg3)) (ix1 q))
def out1 (c : Dev nD) : S10000x512.Idx → EReal :=
  Sage.layer (R := 10000) (n := 512) (agg m c (out0 m c)) (out0 m c) (m ((c : Thread nD τ).loc main_arg5)) (m ((c : Thread nD τ).loc main_arg7)) (fun q => (m ((c : Thread nD τ).loc main_arg6)) (ix1 q))
def out2 (c : Dev nD) : S10000x256.Idx → EReal :=
  Sage.layer (R := 10000) (n := 256) (agg m c (out1 m c)) (out1 m c) (m ((c : Thread nD τ).loc main_arg8)) (m ((c : Thread nD τ).loc main_arg10)) (fun q => (m ((c : Thread nD τ).loc main_arg9)) (ix1 q))

/-! ## What later segments find unchanged -/

section Kept

-- the edge vectors and the counts at the first launch's exit
theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_cnt (c : Dev nD) : W2 m ρ c (Proc.devRef .tc main_v7) = cntOf (dstOf (m ((c : Thread nD τ).loc main_arg1))) :=
  (W2_of_ne m ρ c main_v7 (by decide)).trans (W1_cnt m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)

-- … and at the second launch's exit
theorem W4_src (c : Dev nD) : W4 m ρ c (Proc.devRef .tc main_v1) = srcOf (m ((c : Thread nD τ).loc main_arg1)) :=
  (W4_of_ne m ρ c main_v1 (by decide)).trans ((W3_keep m ρ c main_v1 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_src m ρ c))
theorem W4_dst (c : Dev nD) : W4 m ρ c (Proc.devRef .tc main_v3) = dstOf (m ((c : Thread nD τ).loc main_arg1)) :=
  (W4_of_ne m ρ c main_v3 (by decide)).trans ((W3_keep m ρ c main_v3 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_dst m ρ c))
theorem W4_cnt (c : Dev nD) : W4 m ρ c (Proc.devRef .tc main_v7) = cntOf (dstOf (m ((c : Thread nD τ).loc main_arg1))) :=
  (W4_of_ne m ρ c main_v7 (by decide)).trans ((W3_keep m ρ c main_v7 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_cnt m ρ c))
theorem W4_arg8 (c : Dev nD) : W4 m ρ c (Proc.devRef .tc main_arg8) = (m ((c : Thread nD τ).loc main_arg8)) :=
  (W4_of_ne m ρ c main_arg8 (by decide)).trans ((W3_keep m ρ c main_arg8 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c))
theorem W4_arg9 (c : Dev nD) : W4 m ρ c (Proc.devRef .tc main_arg9) = (m ((c : Thread nD τ).loc main_arg9)) :=
  (W4_of_ne m ρ c main_arg9 (by decide)).trans ((W3_keep m ρ c main_arg9 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c))
theorem W4_arg10 (c : Dev nD) : W4 m ρ c (Proc.devRef .tc main_arg10) = (m ((c : Thread nD τ).loc main_arg10)) :=
  (W4_of_ne m ρ c main_arg10 (by decide)).trans ((W3_keep m ρ c main_arg10 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c))

end Kept

/-! ## The launches' outputs -/

section Outputs

variable
  (hpay0 : ∀ (v0 v3 : Vec Ideal S1000x512 .f32) (v5 v7 : Vec Ideal S512x512 .f32) (v14 : Vec Ideal S1x512 .f32),
      k0_pay1 (F := Ideal) v0 v3 v5 v7 v14 = Sage.layer (R := 1000) (n := 512) v0 v3 v5 v7 (fun j => v14 (ix2 (0 : Fin 1) j)))
  (hpay1 : ∀ (v0 v3 : Vec Ideal S1000x512 .f32) (v5 v7 : Vec Ideal S512x512 .f32) (v14 : Vec Ideal S1x512 .f32),
      k1_pay1 (F := Ideal) v0 v3 v5 v7 v14 = Sage.layer (R := 1000) (n := 512) v0 v3 v5 v7 (fun j => v14 (ix2 (0 : Fin 1) j)))
  (hpay2 : ∀ (v0 v3 : Vec Ideal S1000x512 .f32) (v5 v7 : Vec Ideal S256x512 .f32) (v14 : Vec Ideal S1x256 .f32),
      k2_pay1 (F := Ideal) v0 v3 v5 v7 v14 = Sage.layer (R := 1000) (n := 256) v0 v3 v5 v7 (fun j => v14 (ix2 (0 : Fin 1) j)))

include hpay0 in
/-- The first launch's output array is the first layer of the arguments. -/
theorem W2_out (c : Dev nD) : W2 m ρ c (Proc.devRef .tc main_v24) = out0 m c := by
  refine ((W2_arr m ρ c 5).trans (final0 (V1 m ρ) hpay0 c)).trans ?_
  show Sage.layer (R := 10000) (n := 512) (W1 m ρ c (Proc.devRef .tc main_v22)) (W1 m ρ c (Proc.devRef .tc main_arg0))
      (W1 m ρ c (Proc.devRef .tc main_arg2)) (W1 m ρ c (Proc.devRef .tc main_arg4))
      (fun q => W1 m ρ c (Proc.devRef .tc main_v23) (ix2 (0 : Fin 1) q)) = _
  rw [W1_mean, W1_arg0, W1_arg2, W1_arg4, W1_bias]
  unfold out0 agg
  congr 1
  funext q
  exact shapeCast_a_1a_apply _ _ 0 q

include hpay0 hpay1 in
/-- The second launch's output array is the second layer of the first. -/
theorem W4_out (c : Dev nD) : W4 m ρ c (Proc.devRef .tc main_v41) = out1 m c := by
  refine ((W4_arr m ρ c 5).trans (final1 (V3 m ρ) hpay1 c)).trans ?_
  show Sage.layer (R := 10000) (n := 512) (W3 m ρ c (Proc.devRef .tc main_v39)) (W3 m ρ c (Proc.devRef .tc main_v24))
      (W3 m ρ c (Proc.devRef .tc main_arg5)) (W3 m ρ c (Proc.devRef .tc main_arg7))
      (fun q => W3 m ρ c (Proc.devRef .tc main_v40) (ix2 (0 : Fin 1) q)) = _
  rw [W3_mean, W3_bias,
    W3_keep m ρ c main_v24 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W3_keep m ρ c main_arg5 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W3_keep m ρ c main_arg7 (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W2_out m ρ hpay0 c, W2_src, W2_dst, W2_cnt, W2_arg5, W2_arg6, W2_arg7]
  unfold out1 agg
  congr 1
  funext q
  exact shapeCast_a_1a_apply _ _ 0 q

include hpay0 hpay1 hpay2 in
/-- The result array is the third layer of the second. -/
theorem W6_out (c : Dev nD) : W6 m ρ c (Proc.devRef .tc main_v58) = out2 m c := by
  refine ((W6_arr m ρ c 5).trans (final2 (V5 m ρ) hpay2 c)).trans ?_
  show Sage.layer (R := 10000) (n := 256) (W5 m ρ c (Proc.devRef .tc main_v56)) (W5 m ρ c (Proc.devRef .tc main_v41))
      (W5 m ρ c (Proc.devRef .tc main_arg8)) (W5 m ρ c (Proc.devRef .tc main_arg10))
      (fun q => W5 m ρ c (Proc.devRef .tc main_v57) (ix2 (0 : Fin 1) q)) = _
  rw [W5_mean, W5_bias,
    W5_keep m ρ c main_v41 (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W5_keep m ρ c main_arg8 (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W5_keep m ρ c main_arg10 (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    W4_out m ρ hpay0 hpay1 c, W4_src, W4_dst, W4_cnt, W4_arg8, W4_arg9, W4_arg10]
  unfold out2 agg
  congr 1
  funext q
  exact shapeCast_a_1a_apply _ _ 0 q

end Outputs

end Cert.KernelIdeal.Result

end
-- ==== Proof.RefLayers.lean ====
/-
  The reference program's three layers, each read as the row-wise layer function of the specification.

  Every layer of the reference is the same chain of array operations: the aggregated neighbour means times the
  transposed first weight matrix, plus the broadcast bias, plus the layer's input times the transposed second weight
  matrix; then every row is divided by its Euclidean norm (bounded below by a small constant) and clamped below at
  zero. Read at an entry (r, q) this is `Cert.Sage.rowOut` of row r of the means and of the input. The aggregation
  itself (a gather along the edges followed by two scatter-sums and a division) is never opened: each layer's
  aggregated mean is the SAME function of the layer's input and of the edge list, and that function stays a name.
-/
import proofs.«161853_j25220047962465_1_alg».proof.Proof.Gen.ReferenceIdeal.Read
import proofs.«161853_j25220047962465_1_alg».proof.Proof.SageRow

noncomputable section

namespace Cert.Sage.Ref

open Cert.ReferenceIdeal Cert.ReferenceIdeal.Read Idealize.ShloMosaic Idealize.ShloMosaic.ValueIdx

/-! ## The arrays' types -/

/-- Node features, and every layer's 512-wide output: 10000 rows of 512 extended reals. -/
abbrev Feat : Type := (⟨S10000x512, .f32⟩ : BufTy).Contents (Elt Ideal)
/-- The last layer's output: 10000 rows of 256. -/
abbrev Feat256 : Type := (⟨S10000x256, .f32⟩ : BufTy).Contents (Elt Ideal)
/-- The edge list: two rows of 160000 node numbers. -/
abbrev Edges : Type := (⟨S2x160000, .i32⟩ : BufTy).Contents (Elt Ideal)
/-- A square weight matrix, one row per output feature. -/
abbrev W512 : Type := (⟨S512x512, .f32⟩ : BufTy).Contents (Elt Ideal)
/-- The last layer's weight matrix: 256 rows of 512. -/
abbrev W256 : Type := (⟨S256x512, .f32⟩ : BufTy).Contents (Elt Ideal)
/-- A bias vector of 512 entries. -/
abbrev B512 : Type := (⟨S512, .f32⟩ : BufTy).Contents (Elt Ideal)
/-- The last layer's bias vector of 256 entries. -/
abbrev B256 : Type := (⟨S256, .f32⟩ : BufTy).Contents (Elt Ideal)

/-! ## Layer 0 -/

section Layer0
variable (x0 : Feat) (x1 : Edges) (x2 : W512) (x3 : B512) (x4 : W512)

/-! The generated index functions of layer 0's operations at literal coordinates. The weight matrices are transposed
    before the products, so the contraction reads row q of each. -/
theorem lidx24 (r : Fin 10000) (q : Fin 512) (k : Fin 512) : lidx_main_v24 (ix2 r q) k = ix2 r k := (funext fun a => Fin.ext (by match a with | ⟨0, _⟩ => rfl | ⟨1, _⟩ => rfl))
theorem ridx24 (r : Fin 10000) (q : Fin 512) (k : Fin 512) : ridx_main_v24 (ix2 r q) k = ix2 k q := (funext fun a => Fin.ext (by match a with | ⟨0, _⟩ => rfl | ⟨1, _⟩ => rfl))
theorem idx23 (k : Fin 512) (q : Fin 512) : idx_main_v23 (ix2 k q) = ix2 q k := (funext fun a => Fin.ext (by match a with | ⟨0, _⟩ => rfl | ⟨1, _⟩ => rfl))
theorem idx26 (r : Fin 10000) (q : Fin 512) : idx_main_v26 (ix2 r q) = ix2 (0 : Fin 1) q := (funext fun a => Fin.ext (by match a with | ⟨0, _⟩ => rfl | ⟨1, _⟩ => rfl))
theorem idx25 (q : Fin 512) : idx_main_v25 (ix2 (0 : Fin 1) q) = ix1 q := (funext fun a => Fin.ext (by match a with | ⟨0, _⟩ => rfl))
theorem lidx29 (r : Fin 10000) (q : Fin 512) (k : Fin 512) : lidx_main_v29 (ix2 r q) k = ix2 r k := (funext fun a => Fin.ext (by match a with | ⟨0, _⟩ => rfl | ⟨1, _⟩ => rfl))
theorem ridx29 (r : Fin 10000) (q : Fin 512) (k : Fin 512) : ridx_main_v29 (ix2 r q) k = ix2 k q := (funext fun a => Fin.ext (by match a with | ⟨0, _⟩ => rfl | ⟨1, _⟩ => rfl))
theorem idx28 (k : Fin 512) (q : Fin 512) : idx_main_v28 (ix2 k q) = ix2 q k := (funext fun a => Fin.ext (by match a with | ⟨0, _⟩ => rfl | ⟨1, _⟩ => rfl))
theorem idx37 (r : Fin 10000) (q : Fin 512) : idx_main_v37 (ix2 r q) = ix2 r (0 : Fin 1) := (funext fun a => Fin.ext (by match a with | ⟨0, _⟩ => rfl | ⟨1, _⟩ => rfl))
theorem idx33 (r : Fin 10000) : idx_main_v33 (ix2 r (0 : Fin 1)) = ix1 r := (funext fun a => Fin.ext (by match a with | ⟨0, _⟩ => rfl))
theorem idx32 (r : Fin 10000) (k : Fin 512) : idx_main_v32 (ix1 r) k = ix2 r k := (funext fun a => Fin.ext (by match a with | ⟨0, _⟩ => rfl | ⟨1, _⟩ => rfl))

/-- The affine part of layer 0 at entry (r, q): row r of the aggregated means against row q of the first weight
    matrix, plus the bias, plus row r of the layer's input against row q of the second weight matrix. The reference adds
    the bias before the second product; `Cert.Sage.lin_eq` regroups the sum. -/
theorem aff0 (r : Fin 10000) (q : Fin 512) :
    val_main_v30 (F := Ideal) x0 x1 x2 x3 x4 (ix2 r q) =
      Cert.Sage.lin (fun k => (val_main_v22 (F := Ideal) x0 x1) (ix2 r k)) (fun k => x0 (ix2 r k))
        (fun q k => x2 (ix2 q k)) (fun q k => x4 (ix2 q k)) (fun q => x3 (ix1 q)) q := by
  rw [val_main_v30_apply, val_main_v27_apply, val_main_v24_apply, val_main_v26_apply, val_main_v25_apply,
    val_main_v29_apply]
  simp only [val_main_v23_apply, val_main_v28_apply, lidx24, ridx24, idx23, idx26, idx25, lidx29, ridx29, idx28,
    Ideal.addf_def]
  exact Cert.Sage.lin_eq (fun k => (val_main_v22 (F := Ideal) x0 x1) (ix2 r k)) (fun k => x0 (ix2 r k))
    (fun q k => x2 (ix2 q k)) (fun q k => x4 (ix2 q k)) (fun q => x3 (ix1 q)) q

/-- Layer 0 of the reference, with its aggregated mean left as the stage that computes it: every entry is the
    affine part divided by the row's norm (the square root of the row's sum of squares, bounded below by the small
    constant), clamped below at zero. -/
theorem layer0_raw :
    val_main_v39 (F := Ideal) x0 x1 x2 x3 x4 =
      Cert.Sage.layer (R := 10000) (n := 512) (val_main_v22 (F := Ideal) x0 x1) x0 x2 x4 (fun q => x3 (ix1 q)) := by
  funext i
  obtain ⟨r, q, rfl⟩ : ∃ (r : Fin 10000) (q : Fin 512), i = ix2 r q := ⟨i 0, i 1, eq_ix2 i⟩
  rw [Cert.Sage.layer_apply]
  unfold Cert.Sage.rowOut
  rw [val_main_v39_apply, val_main_v38_apply, val_main_v37_apply, val_main_v36_apply, val_main_v34_apply,
    val_main_v33_apply, val_main_v32_apply, val_main_v35_apply, val_main_cst_5_apply, val_main_cst_4_apply,
    val_main_call0_v0_apply, val_main_call0_cst_apply]
  simp only [idx37, idx33, idx32, val_main_v31_apply, aff0, Ideal.maximumf_def, Ideal.hostDivf_def,
    Ideal.hostUnary_sqrt_def, Ideal.mulf_def, Ideal.ofBits_def, Ideal.ofBits_zero_f32, zero_add]

end Layer0

/-! ## Layer 1 -/

section Layer1
variable (x0 : Feat) (x1 : Edges) (x2 : W512) (x3 : B512) (x4 : W512) (x5 : W512) (x6 : B512) (x7 : W512)

/-! The generated index functions of layer 1's operations at literal coordinates. The weight matrices are transposed
    before the products, so the contraction reads row q of each. -/
theorem lidx64 (r : Fin 10000) (q : Fin 512) (k : Fin 512) : lidx_main_v64 (ix2 r q) k = ix2 r k := (funext fun a => Fin.ext (by match a with | ⟨0, _⟩ => rfl | ⟨1, _⟩ => rfl))
theorem ridx64 (r : Fin 10000) (q : Fin 512) (k : Fin 512) : ridx_main_v64 (ix2 r q) k = ix2 k q := (funext fun a => Fin.ext (by match a with | ⟨0, _⟩ => rfl | ⟨1, _⟩ => rfl))
theorem idx63 (k : Fin 512) (q : Fin 512) : idx_main_v63 (ix2 k q) = ix2 q k := (funext fun a => Fin.ext (by match a with | ⟨0, _⟩ => rfl | ⟨1, _⟩ => rfl))
theorem idx66 (r : Fin 10000) (q : Fin 512) : idx_main_v66 (ix2 r q) = ix2 (0 : Fin 1) q := (funext fun a => Fin.ext (by match a with | ⟨0, _⟩ => rfl | ⟨1, _⟩ => rfl))
theorem idx65 (q : Fin 512) : idx_main_v65 (ix2 (0 : Fin 1) q) = ix1 q := (funext fun a => Fin.ext (by match a with | ⟨0, _⟩ => rfl))
theorem lidx69 (r : Fin 10000) (q : Fin 512) (k : Fin 512) : lidx_main_v69 (ix2 r q) k = ix2 r k := (funext fun a => Fin.ext (by match a with | ⟨0, _⟩ => rfl | ⟨1, _⟩ => rfl))
theorem ridx69 (r : Fin 10000) (q : Fin 512) (k : Fin 512) : ridx_main_v69 (ix2 r q) k = ix2 k q := (funext fun a => Fin.ext (by match a with | ⟨0, _⟩ => rfl | ⟨1, _⟩ => rfl))
theorem idx68 (k : Fin 512) (q : Fin 512) : idx_main_v68 (ix2 k q) = ix2 q k := (funext fun a => Fin.ext (by match a with | ⟨0, _⟩ => rfl | ⟨1, _⟩ => rfl))
theorem idx77 (r : Fin 10000) (q : Fin 512) : idx_main_v77 (ix2 r q) = ix2 r (0 : Fin 1) := (funext fun a => Fin.ext (by match a with | ⟨0, _⟩ => rfl | ⟨1, _⟩ => rfl))
theorem idx73 (r : Fin 10000) : idx_main_v73 (ix2 r (0 : Fin 1)) = ix1 r := (funext fun a => Fin.ext (by match a with | ⟨0, _⟩ => rfl))
theorem idx72 (r : Fin 10000) (k : Fin 512) : idx_main_v72 (ix1 r) k = ix2 r k := (funext fun a => Fin.ext (by match a with | ⟨0, _⟩ => rfl | ⟨1, _⟩ => rfl))

/-- The affine part of layer 1 at entry (r, q): row r of the aggregated means against row q of the first weight
    matrix, plus the bias, plus row r of the layer's input against row q of the second weight matrix. The reference adds
    the bias before the second product; `Cert.Sage.lin_eq` regroups the sum. -/
theorem aff1 (r : Fin 10000) (q : Fin 512) :
    val_main_v70 (F := Ideal) x0 x1 x2 x3 x4 x5 x6 x7 (ix2 r q) =
      Cert.Sage.lin (fun k => (val_main_v62 (F := Ideal) x0 x1 x2 x3 x4) (ix2 r k)) (fun k => (val_main_v39 (F := Ideal) x0 x1 x2 x3 x4) (ix2 r k))
        (fun q k => x5 (ix2 q k)) (fun q k => x7 (ix2 q k)) (fun q => x6 (ix1 q)) q := by
  rw [val_main_v70_apply, val_main_v67_apply, val_main_v64_apply, val_main_v66_apply, val_main_v65_apply,
    val_main_v69_apply]
  simp only [val_main_v63_apply, val_main_v68_apply, lidx64, ridx64, idx63, idx66, idx65, lidx69, ridx69, idx68,
    Ideal.addf_def]
  exact Cert.Sage.lin_eq (fun k => (val_main_v62 (F := Ideal) x0 x1 x2 x3 x4) (ix2 r k)) (fun k => (val_main_v39 (F := Ideal) x0 x1 x2 x3 x4) (ix2 r k))
    (fun q k => x5 (ix2 q k)) (fun q k => x7 (ix2 q k)) (fun q => x6 (ix1 q)) q

/-- Layer 1 of the reference, with its aggregated mean left as the stage that computes it: every entry is the
    affine part divided by the row's norm (the square root of the row's sum of squares, bounded below by the small
    constant), clamped below at zero. -/
theorem layer1_raw :
    val_main_v79 (F := Ideal) x0 x1 x2 x3 x4 x5 x6 x7 =
      Cert.Sage.layer (R := 10000) (n := 512) (val_main_v62 (F := Ideal) x0 x1 x2 x3 x4) (val_main_v39 (F := Ideal) x0 x1 x2 x3 x4) x5 x7 (fun q => x6 (ix1 q)) := by
  funext i
  obtain ⟨r, q, rfl⟩ : ∃ (r : Fin 10000) (q : Fin 512), i = ix2 r q := ⟨i 0, i 1, eq_ix2 i⟩
  rw [Cert.Sage.layer_apply]
  unfold Cert.Sage.rowOut
  rw [val_main_v79_apply, val_main_v78_apply, val_main_v77_apply, val_main_v76_apply, val_main_v74_apply,
    val_main_v73_apply, val_main_v72_apply, val_main_v75_apply, val_main_cst_13_apply, val_main_cst_12_apply,
    val_main_call1_v0_apply, val_main_call1_cst_apply]
  simp only [idx77, idx73, idx72, val_main_v71_apply, aff1, Ideal.maximumf_def, Ideal.hostDivf_def,
    Ideal.hostUnary_sqrt_def, Ideal.mulf_def, Ideal.ofBits_def, Ideal.ofBits_zero_f32, zero_add]

end Layer1

/-! ## Layer 2 -/

section Layer2
variable (x0 : Feat) (x1 : Edges) (x2 : W512) (x3 : B512) (x4 : W512) (x5 : W512) (x6 : B512) (x7 : W512) (x8 : W256) (x9 : B256) (x10 : W256)

/-! The generated index functions of layer 2's operations at literal coordinates. The weight matrices are transposed
    before the products, so the contraction reads row q of each. -/
theorem lidx104 (r : Fin 10000) (q : Fin 256) (k : Fin 512) : lidx_main_v104 (ix2 r q) k = ix2 r k := (funext fun a => Fin.ext (by match a with | ⟨0, _⟩ => rfl | ⟨1, _⟩ => rfl))
theorem ridx104 (r : Fin 10000) (q : Fin 256) (k : Fin 512) : ridx_main_v104 (ix2 r q) k = ix2 k q := (funext fun a => Fin.ext (by match a with | ⟨0, _⟩ => rfl | ⟨1, _⟩ => rfl))
theorem idx103 (k : Fin 512) (q : Fin 256) : idx_main_v103 (ix2 k q) = ix2 q k := (funext fun a => Fin.ext (by match a with | ⟨0, _⟩ => rfl | ⟨1, _⟩ => rfl))
theorem idx106 (r : Fin 10000) (q : Fin 256) : idx_main_v106 (ix2 r q) = ix2 (0 : Fin 1) q := (funext fun a => Fin.ext (by match a with | ⟨0, _⟩ => rfl | ⟨1, _⟩ => rfl))
theorem idx105 (q : Fin 256) : idx_main_v105 (ix2 (0 : Fin 1) q) = ix1 q := (funext fun a => Fin.ext (by match a with | ⟨0, _⟩ => rfl))
theorem lidx109 (r : Fin 10000) (q : Fin 256) (k : Fin 512) : lidx_main_v109 (ix2 r q) k = ix2 r k := (funext fun a => Fin.ext (by match a with | ⟨0, _⟩ => rfl | ⟨1, _⟩ => rfl))
theorem ridx109 (r : Fin 10000) (q : Fin 256) (k : Fin 512) : ridx_main_v109 (ix2 r q) k = ix2 k q := (funext fun a => Fin.ext (by match a with | ⟨0, _⟩ => rfl | ⟨1, _⟩ => rfl))
theorem idx108 (k : Fin 512) (q : Fin 256) : idx_main_v108 (ix2 k q) = ix2 q k := (funext fun a => Fin.ext (by match a with | ⟨0, _⟩ => rfl | ⟨1, _⟩ => rfl))
theorem idx117 (r : Fin 10000) (q : Fin 256) : idx_main_v117 (ix2 r q) = ix2 r (0 : Fin 1) := (funext fun a => Fin.ext (by match a with | ⟨0, _⟩ => rfl | ⟨1, _⟩ => rfl))
theorem idx113 (r : Fin 10000) : idx_main_v113 (ix2 r (0 : Fin 1)) = ix1 r := (funext fun a => Fin.ext (by match a with | ⟨0, _⟩ => rfl))
theorem idx112 (r : Fin 10000) (k : Fin 256) : idx_main_v112 (ix1 r) k = ix2 r k := (funext fun a => Fin.ext (by match a with | ⟨0, _⟩ => rfl | ⟨1, _⟩ => rfl))

/-- The affine part of layer 2 at entry (r, q): row r of the aggregated means against row q of the first weight
    matrix, plus the bias, plus row r of the layer's input against row q of the second weight matrix. The reference adds
    the bias before the second product; `Cert.Sage.lin_eq` regroups the sum. -/
theorem aff2 (r : Fin 10000) (q : Fin 256) :
    val_main_v110 (F := Ideal) x0 x1 x2 x3 x4 x5 x6 x7 x8 x9 x10 (ix2 r q) =
      Cert.Sage.lin (fun k => (val_main_v102 (F := Ideal) x0 x1 x2 x3 x4 x5 x6 x7) (ix2 r k)) (fun k => (val_main_v79 (F := Ideal) x0 x1 x2 x3 x4 x5 x6 x7) (ix2 r k))
        (fun q k => x8 (ix2 q k)) (fun q k => x10 (ix2 q k)) (fun q => x9 (ix1 q)) q := by
  rw [val_main_v110_apply, val_main_v107_apply, val_main_v104_apply, val_main_v106_apply, val_main_v105_apply,
    val_main_v109_apply]
  simp only [val_main_v103_apply, val_main_v108_apply, lidx104, ridx104, idx103, idx106, idx105, lidx109, ridx109, idx108,
    Ideal.addf_def]
  exact Cert.Sage.lin_eq (fun k => (val_main_v102 (F := Ideal) x0 x1 x2 x3 x4 x5 x6 x7) (ix2 r k)) (fun k => (val_main_v79 (F := Ideal) x0 x1 x2 x3 x4 x5 x6 x7) (ix2 r k))
    (fun q k => x8 (ix2 q k)) (fun q k => x10 (ix2 q k)) (fun q => x9 (ix1 q)) q

/-- Layer 2 of the reference, with its aggregated mean left as the stage that computes it: every entry is the
    affine part divided by the row's norm (the square root of the row's sum of squares, bounded below by the small
    constant), clamped below at zero. -/
theorem layer2_raw :
    val_main_v119 (F := Ideal) x0 x1 x2 x3 x4 x5 x6 x7 x8 x9 x10 =
      Cert.Sage.layer (R := 10000) (n := 256) (val_main_v102 (F := Ideal) x0 x1 x2 x3 x4 x5 x6 x7) (val_main_v79 (F := Ideal) x0 x1 x2 x3 x4 x5 x6 x7) x8 x10 (fun q => x9 (ix1 q)) := by
  funext i
  obtain ⟨r, q, rfl⟩ : ∃ (r : Fin 10000) (q : Fin 256), i = ix2 r q := ⟨i 0, i 1, eq_ix2 i⟩
  rw [Cert.Sage.layer_apply]
  unfold Cert.Sage.rowOut
  rw [val_main_v119_apply, val_main_v118_apply, val_main_v117_apply, val_main_v116_apply, val_main_v114_apply,
    val_main_v113_apply, val_main_v112_apply, val_main_v115_apply, val_main_cst_21_apply, val_main_cst_20_apply,
    val_main_call2_v0_apply, val_main_call2_cst_apply]
  simp only [idx117, idx113, idx112, val_main_v111_apply, aff2, Ideal.maximumf_def, Ideal.hostDivf_def,
    Ideal.hostUnary_sqrt_def, Ideal.mulf_def, Ideal.ofBits_def, Ideal.ofBits_zero_f32, zero_add]

end Layer2

/-! ## The aggregated means of layers 1 and 2

  Layers 1 and 2 repeat, under new names, the operations that aggregate layer 0's input: the same slices of the edge
  list, the same gather, the same two scatter-sums into zeros, the same clamp of the neighbour counts at one and the
  same division — applied to the previous layer's output. So each is the layer-0 aggregation stage at that output, by
  unfolding the definitions. -/

section Means
variable (x0 : Feat) (x1 : Edges) (x2 : W512) (x3 : B512) (x4 : W512) (x5 : W512) (x6 : B512) (x7 : W512)

theorem mean1_eq :
    val_main_v62 (F := Ideal) x0 x1 x2 x3 x4 =
      val_main_v22 (F := Ideal) (val_main_v39 (F := Ideal) x0 x1 x2 x3 x4) x1 := rfl

theorem mean2_eq :
    val_main_v102 (F := Ideal) x0 x1 x2 x3 x4 x5 x6 x7 =
      val_main_v22 (F := Ideal) (val_main_v79 (F := Ideal) x0 x1 x2 x3 x4 x5 x6 x7) x1 := rfl

end Means

/-! ## The three layers over the one aggregation stage, and their composition -/

section Result
variable (x0 : Feat) (x1 : Edges) (x2 : W512) (x3 : B512) (x4 : W512) (x5 : W512) (x6 : B512) (x7 : W512)
  (x8 : W256) (x9 : B256) (x10 : W256)

theorem layer0_eq :
    val_main_v39 (F := Ideal) x0 x1 x2 x3 x4 =
      Cert.Sage.layer (R := 10000) (n := 512) (val_main_v22 (F := Ideal) x0 x1) x0 x2 x4 (fun q => x3 (ix1 q)) :=
  layer0_raw x0 x1 x2 x3 x4

theorem layer1_eq :
    val_main_v79 (F := Ideal) x0 x1 x2 x3 x4 x5 x6 x7 =
      Cert.Sage.layer (R := 10000) (n := 512)
        (val_main_v22 (F := Ideal) (val_main_v39 (F := Ideal) x0 x1 x2 x3 x4) x1)
        (val_main_v39 (F := Ideal) x0 x1 x2 x3 x4) x5 x7 (fun q => x6 (ix1 q)) := by
  rw [← mean1_eq]; exact layer1_raw x0 x1 x2 x3 x4 x5 x6 x7

theorem layer2_eq :
    val_main_v119 (F := Ideal) x0 x1 x2 x3 x4 x5 x6 x7 x8 x9 x10 =
      Cert.Sage.layer (R := 10000) (n := 256)
        (val_main_v22 (F := Ideal) (val_main_v79 (F := Ideal) x0 x1 x2 x3 x4 x5 x6 x7) x1)
        (val_main_v79 (F := Ideal) x0 x1 x2 x3 x4 x5 x6 x7) x8 x10 (fun q => x9 (ix1 q)) := by
  rw [← mean2_eq]; exact layer2_raw x0 x1 x2 x3 x4 x5 x6 x7 x8 x9 x10

/-- The reference's result as three nested layers of the arguments: each layer takes the previous layer's output both
    as its input and, through the one aggregation stage, as the source of its neighbour means. -/
theorem result_eq :
    val_main_v119 (F := Ideal) x0 x1 x2 x3 x4 x5 x6 x7 x8 x9 x10 =
      Cert.Sage.layer (R := 10000) (n := 256)
        (val_main_v22 (F := Ideal)
          (Cert.Sage.layer (R := 10000) (n := 512)
            (val_main_v22 (F := Ideal)
              (Cert.Sage.layer (R := 10000) (n := 512) (val_main_v22 (F := Ideal) x0 x1) x0 x2 x4 (fun q => x3 (ix1 q)))
              x1)
            (Cert.Sage.layer (R := 10000) (n := 512) (val_main_v22 (F := Ideal) x0 x1) x0 x2 x4 (fun q => x3 (ix1 q)))
            x5 x7 (fun q => x6 (ix1 q)))
          x1)
        (Cert.Sage.layer (R := 10000) (n := 512)
          (val_main_v22 (F := Ideal)
            (Cert.Sage.layer (R := 10000) (n := 512) (val_main_v22 (F := Ideal) x0 x1) x0 x2 x4 (fun q => x3 (ix1 q)))
            x1)
          (Cert.Sage.layer (R := 10000) (n := 512) (val_main_v22 (F := Ideal) x0 x1) x0 x2 x4 (fun q => x3 (ix1 q)))
          x5 x7 (fun q => x6 (ix1 q)))
        x8 x10 (fun q => x9 (ix1 q)) := by
  rw [layer2_eq, layer1_eq, layer0_eq]

end Result

end Cert.Sage.Ref

end
-- ==== Proof.Bridge.lean ====
/-
  The two programs aggregate along the edge list by the same operations, and so compute the same three layers.

  The kernel's aggregation `aggOf` of a feature array, applied to the edge list's source row, destination row and the
  per-node edge counts, is the reference's aggregation stage of the same feature array and edge list: slice and reshape
  of the two rows, the single wrap of negative source indices, the gather of source rows, the sum per destination, the
  count of edges per destination bounded below by one, the quotient. The two are one term, operation for operation.
-/
import proofs.«161853_j25220047962465_1_alg».proof.Proof.KernelFold
import proofs.«161853_j25220047962465_1_alg».proof.Proof.KernelValue
import proofs.«161853_j25220047962465_1_alg».proof.Proof.RefLayers
import proofs.«161853_j25220047962465_1_alg».proof.Proof.Gen.ReferenceIdeal.Read

set_option maxRecDepth 16384

noncomputable section

namespace Cert.Sage.Bridge

open Idealize.ShloMosaic Idealize.ShloMosaic.TcCoe Idealize.SL.Sem

theorem agg_eq (cur : (⟨Cert.KernelIdeal.S10000x512, .f32⟩ : BufTy).Contents (Elt Ideal))
    (e : (⟨Cert.KernelIdeal.S2x160000, .i32⟩ : BufTy).Contents (Elt Ideal)) :
    Cert.KernelIdeal.Fold.aggOf (F := Ideal) cur (Cert.KernelIdeal.Fold.srcOf e) (Cert.KernelIdeal.Fold.dstOf e)
        (Cert.KernelIdeal.Fold.cntOf (Cert.KernelIdeal.Fold.dstOf e))
      = Cert.ReferenceIdeal.Read.val_main_v22 (F := Ideal) cur e := rfl

/-- The reference's result, staged, at the kernel's arguments is the kernel's three nested layers: the reference's layers
    are the layer function of its aggregation stage, and that stage is the kernel's aggregation. -/
theorem ref_result (m : (ℓ : Loc Cert.KernelIdeal.nD Cert.KernelIdeal.τ Cert.KernelIdeal.sig) → Buf (Elt Ideal) ℓ)
    (c : Dev Cert.KernelIdeal.nD) :
    Cert.ReferenceIdeal.Read.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = Cert.KernelIdeal.Result.out2 m c := by
  rw [Cert.Sage.Ref.result_eq]
  unfold Cert.KernelIdeal.Result.out2 Cert.KernelIdeal.Result.out1 Cert.KernelIdeal.Result.out0 Cert.KernelIdeal.Result.agg
  simp only [agg_eq]

end Cert.Sage.Bridge

end
-- ==== Proof.Claims.lean ====
/-
  The five claims.

  The three frames: the two kernel programs by the generated frame certificates; the reference by its generated run with
  the result dropped. The idealization rewrote nothing, so `preserves` is trivial. The algebraic claim: the idealized
  kernel ends with its result array at the three nested layers `out2` of its arguments (the run with the result named, and
  the fold opened); the idealized reference ends at its staged term of its own arguments, which agree with the kernel's,
  and that term is the same three nested layers.
-/
import proofs.«161853_j25220047962465_1_alg».proof.Defs
import proofs.«161853_j25220047962465_1_alg».proof.Proof.Gen.Kernel.Frame
import proofs.«161853_j25220047962465_1_alg».proof.Proof.Gen.KernelIdeal.Frame
import proofs.«161853_j25220047962465_1_alg».proof.Proof.Gen.ReferenceIdeal.Run
import proofs.«161853_j25220047962465_1_alg».proof.Proof.Gen.ReferenceIdeal.Read
import proofs.«161853_j25220047962465_1_alg».proof.Proof.Gen.Pre_finite_inputs
import proofs.«161853_j25220047962465_1_alg».proof.Proof.KernelRun
import proofs.«161853_j25220047962465_1_alg».proof.Proof.KernelRows
import proofs.«161853_j25220047962465_1_alg».proof.Proof.KernelValue
import proofs.«161853_j25220047962465_1_alg».proof.Proof.Bridge

set_option maxRecDepth 16384

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both idealized programs end with the result at the three nested layers of
    the kernel's arguments. -/
theorem algebraic : Cert.algebraic_KernelIdeal_ReferenceIdeal := by
  intro m ρ m' ρ' _ hagree
  refine ⟨fun c => Cert.KernelIdeal.Result.out2 m c, ?_, ?_⟩
  · exact (θ_run Cert.KernelIdeal.defs _ _).mono
      (fun r h c => ⟨(h c).1.trans (Cert.KernelIdeal.Result.W6_out m ρ Cert.Sage.Kern.pay0_eq Cert.Sage.Kern.pay1_eq
        Cert.Sage.Kern.pay2_eq c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v119_eq, a0, a1, a2, a3, a4, a5, a6, a7, a8, a9, a10]
    exact Cert.Sage.Bridge.ref_result m c

end Cert.Proof.Claims

end
-- ==== Proof.lean ====
/-
  A three-layer graph network with mean aggregation: a kernel that runs each layer's dense part as a tiled launch, against
  a plain array program.

  Each layer takes the current node features `x` (10000 rows), aggregates them along the edge list — every edge gathers
  the row of its source node, the rows are added up per destination node and divided by the node's edge count, bounded
  below by one — and maps row r of the aggregate `a` and row r of `x` to

      max (lin / max (sqrt (Σ_j lin_j²)) ε) 0,     lin_q = Σ_k a_k · Wl_{q,k} + Σ_k x_k · Wr_{q,k} + b_q.

  The kernel computes the edge vectors and the counts once, aggregates on the host before each launch, and runs the dense
  map in ten blocks of 1000 rows per launch, adding the bias last; the reference recomputes the counts per layer and adds
  the bias before the second product. On the extended reals both are the same function of the arguments: addition is
  commutative and associative, a change of float format is the identity, a block of rows of the dense map is the dense
  map of the block, and the aggregation is the same operations on both sides. No finiteness of the inputs is used.

  Proof/SageRow.lean states the row function; Proof/KernelRows.lean reads the three kernel bodies as it; Proof/KernelRun.lean,
  KernelFold.lean, KernelBlocks.lean and KernelValue.lean read the kernel's result array through its three launches;
  Proof/RefLayers.lean reads the reference's three layers; Proof/Bridge.lean joins the two; Proof/Claims.lean states the
  five claims assembled below behind the witnesses of the programs' stated facts.
-/
import proofs.«161853_j25220047962465_1_alg».proof.Defs
import proofs.«161853_j25220047962465_1_alg».proof.Proof.Gen.Kernel
import proofs.«161853_j25220047962465_1_alg».proof.Proof.Gen.KernelIdeal
import proofs.«161853_j25220047962465_1_alg».proof.Proof.Gen.ReferenceIdeal
import proofs.«161853_j25220047962465_1_alg».proof.Proof.Gen.Pre_finite_inputs
import proofs.«161853_j25220047962465_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
